-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1025x1024 : Shape := ⟨3, ![64, 1025, 1024]⟩
abbrev S1x528x1024 : Shape := ⟨3, ![1, 528, 1024]⟩
abbrev S1x1x256 : Shape := ⟨3, ![1, 1, 256]⟩
abbrev S_ : Shape := ⟨0, ![]⟩

class Facts : Prop where
  bcast_S_S64x1025x1024 : S_.BroadcastsInDim S64x1025x1024 (![] : Fin 0 → Fin S64x1025x1024.rank)
  reducesTo_S64x1025x1024_S_d0_1_2 : S64x1025x1024.ReducesTo [0, 1, 2] S_
  h_S_ : 0 < S_.numel
  bcast_S_S1x528x1024 : S_.BroadcastsInDim S1x528x1024 (![] : Fin 0 → Fin S1x528x1024.rank)
  reducesTo_S1x528x1024_S_d0_1_2 : S1x528x1024.ReducesTo [0, 1, 2] S_
  bcast_S_S1x1x256 : S_.BroadcastsInDim S1x1x256 (![] : Fin 0 → Fin S1x1x256.rank)
  reducesTo_S1x1x256_S_d0_1_2 : S1x1x256.ReducesTo [0, 1, 2] S_

variable [Facts]

def fn {F : FTy → Type} [FloatOps F] (main_arg0 : FVec F S64x1025x1024 .f32) (main_arg1 : FVec F S1x528x1024 .f32) (main_arg2 : FVec F S1x1x256 .f32) : IVec S_ 1 :=
  let main_v0 : FVec F S64x1025x1024 .f32 := Host.absf main_arg0
  let main_cst : FVec F S_ .f32 := constant S_ .f32 0x7F800000#32
  let main_v1 : FVec F S64x1025x1024 .f32 := broadcastInDim S64x1025x1024 ![] bcast_S_S64x1025x1024 main_cst
  let main_v2 : IVec S64x1025x1024 1 := cmpf .olt main_v0 main_v1
  let main_c : IVec S_ 1 := constantI S_ 1 1#1
  let main_v3 : IVec S_ 1 := (fun x v => Host.reduce IntOp.andi x v reducesTo_S64x1025x1024_S_d0_1_2 h_S_) main_v2 main_c
  let main_v4 : FVec F S1x528x1024 .f32 := Host.absf main_arg1
  let main_cst_0 : FVec F S_ .f32 := constant S_ .f32 0x7F800000#32
  let main_v5 : FVec F S1x528x1024 .f32 := broadcastInDim S1x528x1024 ![] bcast_S_S1x528x1024 main_cst_0
  let main_v6 : IVec S1x528x1024 1 := cmpf .olt main_v4 main_v5
  let main_c_1 : IVec S_ 1 := constantI S_ 1 1#1
  let main_v7 : IVec S_ 1 := (fun x v => Host.reduce IntOp.andi x v reducesTo_S1x528x1024_S_d0_1_2 h_S_) main_v6 main_c_1
  let main_v8 : IVec S_ 1 := andi main_v3 main_v7
  let main_v9 : FVec F S1x1x256 .f32 := Host.absf main_arg2
  let main_cst_2 : FVec F S_ .f32 := constant S_ .f32 0x7F800000#32
  let main_v10 : FVec F S1x1x256 .f32 := broadcastInDim S1x1x256 ![] bcast_S_S1x1x256 main_cst_2
  let main_v11 : IVec S1x1x256 1 := cmpf .olt main_v9 main_v10
  let main_c_3 : IVec S_ 1 := constantI S_ 1 1#1
  let main_v12 : IVec S_ 1 := (fun x v => Host.reduce IntOp.andi x v reducesTo_S1x1x256_S_d0_1_2 h_S_) main_v11 main_c_3
  let main_v13 : IVec S_ 1 := andi main_v8 main_v12
  main_v13
-- ==== Kernel.lean ====
abbrev S64x1025x1024 : Shape := ⟨3, ![64, 1025, 1024]⟩
abbrev S1x528x1024 : Shape := ⟨3, ![1, 528, 1024]⟩
abbrev S1x1x256 : Shape := ⟨3, ![1, 1, 256]⟩
abbrev S1024 : Shape := ⟨1, ![1024]⟩
abbrev S1024x1 : Shape := ⟨2, ![1024, 1]⟩
abbrev S1024x4 : Shape := ⟨2, ![1024, 4]⟩
abbrev S528x1024 : Shape := ⟨2, ![528, 1024]⟩
abbrev S528x4x256 : Shape := ⟨3, ![528, 4, 256]⟩
abbrev S_ : Shape := ⟨0, ![]⟩
abbrev S1024x4x256 : Shape := ⟨3, ![1024, 4, 256]⟩
abbrev S1024x4x1 : Shape := ⟨3, ![1024, 4, 1]⟩
abbrev S1024x4x2 : Shape := ⟨3, ![1024, 4, 2]⟩
abbrev S1024x1024 : Shape := ⟨2, ![1024, 1024]⟩
abbrev S1x256 : Shape := ⟨2, ![1, 256]⟩
abbrev S1x1x1x256 : Shape := ⟨4, ![1, 1, 1, 256]⟩
abbrev S1x1x4x256 : Shape := ⟨4, ![1, 1, 4, 256]⟩
abbrev S1x1024 : Shape := ⟨2, ![1, 1024]⟩
abbrev S1025x1024 : Shape := ⟨2, ![1025, 1024]⟩
abbrev S16x128x1024 : Shape := ⟨3, ![16, 128, 1024]⟩
abbrev S128x1024 : Shape := ⟨2, ![128, 1024]⟩
abbrev S1x128x1024 : Shape := ⟨3, ![1, 128, 1024]⟩

abbrev nBuf : Space → Nat
  | .hbm => 37
  | .vmem => 6
  | .smem => 0
  | _ => 0

abbrev bufTy : (tb : Table) → Fin (tcTables nBuf tb) → BufTy
  | .hbm, ⟨0, _⟩ => ⟨S64x1025x1024, .f32⟩
  | .hbm, ⟨1, _⟩ => ⟨S1x528x1024, .f32⟩
  | .hbm, ⟨2, _⟩ => ⟨S1x1x256, .f32⟩
  | .hbm, ⟨3, _⟩ => ⟨S1024, .i32⟩
  | .hbm, ⟨4, _⟩ => ⟨S1024, .i1⟩
  | .hbm, ⟨5, _⟩ => ⟨S1024x1, .i32⟩
  | .hbm, ⟨6, _⟩ => ⟨S1024x1, .i1⟩
  | .hbm, ⟨7, _⟩ => ⟨S1024x4, .i32⟩
  | .hbm, ⟨8, _⟩ => ⟨S1024x4, .i1⟩
  | .hbm, ⟨9, _⟩ => ⟨S528x1024, .f32⟩
  | .hbm, ⟨10, _⟩ => ⟨S528x4x256, .f32⟩
  | .hbm, ⟨11, _⟩ => ⟨S_, .i32⟩
  | .hbm, ⟨12, _⟩ => ⟨S1024, .i32⟩
  | .hbm, ⟨13, _⟩ => ⟨S1024, .i32⟩
  | .hbm, ⟨14, _⟩ => ⟨S1024, .i32⟩
  | .hbm, ⟨15, _⟩ => ⟨S1024x1, .i32⟩
  | .hbm, ⟨16, _⟩ => ⟨S1024x4x256, .f32⟩
  | .hbm, ⟨17, _⟩ => ⟨S_, .i32⟩
  | .hbm, ⟨18, _⟩ => ⟨S1024x1, .i32⟩
  | .hbm, ⟨19, _⟩ => ⟨S1024x1, .i32⟩
  | .hbm, ⟨20, _⟩ => ⟨S1024x1, .i32⟩
  | .hbm, ⟨21, _⟩ => ⟨S_, .i32⟩
  | .hbm, ⟨22, _⟩ => ⟨S1024x4, .i32⟩
  | .hbm, ⟨23, _⟩ => ⟨S1024x4, .i32⟩
  | .hbm, ⟨24, _⟩ => ⟨S1024x4, .i32⟩
  | .hbm, ⟨25, _⟩ => ⟨S1024x4, .i32⟩
  | .hbm, ⟨26, _⟩ => ⟨S1024x4x1, .i32⟩
  | .hbm, ⟨27, _⟩ => ⟨S1024x4x1, .i32⟩
  | .hbm, ⟨28, _⟩ => ⟨S1024x4x2, .i32⟩
  | .hbm, ⟨29, _⟩ => ⟨S1024x4x256, .f32⟩
  | .hbm, ⟨30, _⟩ => ⟨S1024x1024, .f32⟩
  | .hbm, ⟨31, _⟩ => ⟨S1x256, .f32⟩
  | .hbm, ⟨32, _⟩ => ⟨S1x1x1x256, .f32⟩
  | .hbm, ⟨33, _⟩ => ⟨S1x1x4x256, .f32⟩
  | .hbm, ⟨34, _⟩ => ⟨S1x1024, .f32⟩
  | .hbm, ⟨35, _⟩ => ⟨S1025x1024, .f32⟩
  | .hbm, ⟨36, _⟩ => ⟨S64x1025x1024, .f32⟩
  | .local _ .vmem, ⟨0, _⟩ => ⟨S16x128x1024, .f32⟩
  | .local _ .vmem, ⟨1, _⟩ => ⟨S16x128x1024, .f32⟩
  | .local _ .vmem, ⟨2, _⟩ => ⟨S128x1024, .f32⟩
  | .local _ .vmem, ⟨3, _⟩ => ⟨S128x1024, .f32⟩
  | .local _ .vmem, ⟨4, _⟩ => ⟨S16x128x1024, .f32⟩
  | .local _ .vmem, ⟨5, _⟩ => ⟨S16x128x1024, .f32⟩
  | _, _ => ⟨S64x1025x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_c_2 : Ref sig .tc := ⟨.hbm, 6, rfl⟩
abbrev main_c_3 : Ref sig .tc := ⟨.hbm, 7, rfl⟩
abbrev main_c_4 : Ref sig .tc := ⟨.hbm, 8, rfl⟩
abbrev main_v0 : Ref sig .tc := ⟨.hbm, 9, rfl⟩
abbrev main_v1 : Ref sig .tc := ⟨.hbm, 10, rfl⟩
abbrev main_c_5 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c_7 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![9, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S16x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S1x528x1024_S528x1024 : S1x528x1024.ShapeCasts S528x1024
  shapeCasts_S528x1024_S528x4x256 : S528x1024.ShapeCasts S528x4x256
  bcast_S_S1024 : S_.BroadcastsInDim S1024 (![] : Fin 0 → Fin S1024.rank)
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S_S1024x4 : S_.BroadcastsInDim S1024x4 (![] : Fin 0 → Fin S1024x4.rank)
  bcast_S1024x1_S1024x4_0_1 : S1024x1.BroadcastsInDim S1024x4 (![0, 1] : Fin 2 → Fin S1024x4.rank)
  bcast_S1024x4_S1024x4x1_0_1 : S1024x4.BroadcastsInDim S1024x4x1 (![0, 1] : Fin 2 → Fin S1024x4x1.rank)
  concatenates_S1024x4x1_S1024x4x1_S1024x4x2_d2 : Shape.Concatenates [S1024x4x1, S1024x4x1] S1024x4x2 2
  shapeCasts_S1024x4x256_S1024x1024 : S1024x4x256.ShapeCasts S1024x1024
  shapeCasts_S1x1x256_S1x256 : S1x1x256.ShapeCasts S1x256
  shapeCasts_S1x256_S1x1x1x256 : S1x256.ShapeCasts S1x1x1x256
  bcast_S1x1x1x256_S1x1x4x256_0_1_2_3 : S1x1x1x256.BroadcastsInDim S1x1x4x256 (![0, 1, 2, 3] : Fin 4 → Fin S1x1x4x256.rank)
  shapeCasts_S1x1x4x256_S1x1024 : S1x1x4x256.ShapeCasts S1x1024
  concatenates_S1x1024_S1024x1024_S1025x1024_d0 : Shape.Concatenates [S1x1024, S1024x1024] S1025x1024 0
  inb_S16x128x1024_S16x128x1024_0_0_0 : ∀ a, (![0, 0, 0] : Fin 3 → Nat) a + S16x128x1024.size a ≤ S16x128x1024.size a
  h_S16x128x1024 : 0 < S16x128x1024.numel
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  shapeCasts_S128x1024_S1x128x1024 : S128x1024.ShapeCasts S1x128x1024
  broadcasts_S1x128x1024_S16x128x1024 : S1x128x1024.Broadcasts S16x128x1024
  gather_S528x4x256_S1024x1_S1024x4x256_12_0_n_n_0_1_14256_wf : GatherDims.WF S528x4x256 S1024x1 S1024x4x256 [1, 2] [0] [] [0] [] 1 ![1, 4, 256]
  gather_S1024x4x256_S1024x4x2_S1024x4x256_2_01_n_n_01_2_11256_wf : GatherDims.WF S1024x4x256 S1024x4x2 S1024x4x256 [2] [0, 1] [] [0, 1] [] 2 ![1, 1, 256]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S16x128x1024.size a < S64x1025x1024.size a
  hwx0_0 : ∀ i : grid0.Coords, EltTy.bits .f32 = 32 ∨ (Rect.unit (s := S64x1025x1024) (fun a => cc0_transform_0 i a * S16x128x1024.size a) (fun a => (Pipeline.Clip.of (cc0_transform_0 i a) (S16x128x1024.size a) (S64x1025x1024.size a)).extent (S16x128x1024.size a)) fun a => Pipeline.Clip.inb (Pipeline.Clip.ok_of (hstart0_0 i a))).WholeWords (EltTy.packing .f32)
  hwxs0_0 : ∀ i : grid0.Coords, EltTy.bits .f32 = 32 ∨ (Rect.unit (s := S16x128x1024) (fun _ => 0) (fun a => (Pipeline.Clip.of (cc0_transform_0 i a) (S16x128x1024.size a) (S64x1025x1024.size a)).extent (S16x128x1024.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S128x1024.size a < S1025x1024.size a
  hwx0_1 : ∀ i : grid0.Coords, EltTy.bits .f32 = 32 ∨ (Rect.unit (s := S1025x1024) (fun a => cc0_transform_1 i a * S128x1024.size a) (fun a => (Pipeline.Clip.of (cc0_transform_1 i a) (S128x1024.size a) (S1025x1024.size a)).extent (S128x1024.size a)) fun a => Pipeline.Clip.inb (Pipeline.Clip.ok_of (hstart0_1 i a))).WholeWords (EltTy.packing .f32)
  hwxs0_1 : ∀ i : grid0.Coords, EltTy.bits .f32 = 32 ∨ (Rect.unit (s := S128x1024) (fun _ => 0) (fun a => (Pipeline.Clip.of (cc0_transform_1 i a) (S128x1024.size a) (S1025x1024.size a)).extent (S128x1024.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S16x128x1024.size a < S64x1025x1024.size a
  hwx0_2 : ∀ i : grid0.Coords, EltTy.bits .f32 = 32 ∨ (Rect.unit (s := S64x1025x1024) (fun a => cc0_transform_2 i a * S16x128x1024.size a) (fun a => (Pipeline.Clip.of (cc0_transform_2 i a) (S16x128x1024.size a) (S64x1025x1024.size a)).extent (S16x128x1024.size a)) fun a => Pipeline.Clip.inb (Pipeline.Clip.ok_of (hstart0_2 i a))).WholeWords (EltTy.packing .f32)
  hwxs0_2 : ∀ i : grid0.Coords, EltTy.bits .f32 = 32 ∨ (Rect.unit (s := S16x128x1024) (fun _ => 0) (fun a => (Pipeline.Clip.of (cc0_transform_2 i a) (S16x128x1024.size a) (S64x1025x1024.size a)).extent (S16x128x1024.size a)) fun a => (Nat.zero_add _).trans_le (Pipeline.Clip.extent_le (Pipeline.Clip.ok_of (hstart0_2 i a)))).WholeWords (EltTy.packing .f32)

variable [Facts₀]

def gather_S528x4x256_S1024x1_S1024x4x256_12_0_n_n_0_1_14256 : GatherDims S528x4x256 S1024x1 S1024x4x256 where
  offsetDims := [1, 2]
  collapsedSliceDims := [0]
  operandBatchingDims := []
  startIndicesBatchingDims := []
  startIndexMap := [0]
  indexVectorDim := 1
  sliceSizes := ![1, 4, 256]
  wf := gather_S528x4x256_S1024x1_S1024x4x256_12_0_n_n_0_1_14256_wf
def gather_S1024x4x256_S1024x4x2_S1024x4x256_2_01_n_n_01_2_11256 : GatherDims S1024x4x256 S1024x4x2 S1024x4x256 where
  offsetDims := [2]
  collapsedSliceDims := [0, 1]
  operandBatchingDims := []
  startIndicesBatchingDims := []
  startIndexMap := [0, 1]
  indexVectorDim := 2
  sliceSizes := ![1, 1, 256]
  wf := gather_S1024x4x256_S1024x4x2_S1024x4x256_2_01_n_n_01_2_11256_wf

abbrev win0_0 : Pipeline.Window sig grid0 :=
  Pipeline.Window.ofSpecClip (Memref.whole main_arg0) S16x128x1024.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_v23) S128x1024.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v24) S16x128x1024.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x1025x1024 : Shape := ⟨3, ![64, 1025, 1024]⟩
abbrev S1x528x1024 : Shape := ⟨3, ![1, 528, 1024]⟩
abbrev S1x1x256 : Shape := ⟨3, ![1, 1, 256]⟩
abbrev S1024 : Shape := ⟨1, ![1024]⟩
abbrev S1024x1 : Shape := ⟨2, ![1024, 1]⟩
abbrev S1024x4 : Shape := ⟨2, ![1024, 4]⟩
abbrev S528x1024 : Shape := ⟨2, ![528, 1024]⟩
abbrev S528x4x256 : Shape := ⟨3, ![528, 4, 256]⟩
abbrev S_ : Shape := ⟨0, ![]⟩
abbrev S1024x4x256 : Shape := ⟨3, ![1024, 4, 256]⟩
abbrev S1024x4x1 : Shape := ⟨3, ![1024, 4, 1]⟩
abbrev S1024x4x2 : Shape := ⟨3, ![1024, 4, 2]⟩
abbrev S1024x1024 : Shape := ⟨2, ![1024, 1024]⟩
abbrev S1x256 : Shape := ⟨2, ![1, 256]⟩
abbrev S1x1x1x256 : Shape := ⟨4, ![1, 1, 1, 256]⟩
abbrev S1x1x4x256 : Shape := ⟨4, ![1, 1, 4, 256]⟩
abbrev S1x1024 : Shape := ⟨2, ![1, 1024]⟩
abbrev S1025x1024 : Shape := ⟨2, ![1025, 1024]⟩
abbrev S1x1025x1024 : Shape := ⟨3, ![1, 1025, 1024]⟩

abbrev nBuf : Space → Nat
  | .hbm => 39
  | .vmem => 0
  | .smem => 0
  | _ => 0

abbrev bufTy : (tb : Table) → Fin (tcTables nBuf tb) → BufTy
  | .hbm, ⟨0, _⟩ => ⟨S64x1025x1024, .f32⟩
  | .hbm, ⟨1, _⟩ => ⟨S1x528x1024, .f32⟩
  | .hbm, ⟨2, _⟩ => ⟨S1x1x256, .f32⟩
  | .hbm, ⟨3, _⟩ => ⟨S1024, .i32⟩
  | .hbm, ⟨4, _⟩ => ⟨S1024, .i1⟩
  | .hbm, ⟨5, _⟩ => ⟨S1024x1, .i32⟩
  | .hbm, ⟨6, _⟩ => ⟨S1024x1, .i1⟩
  | .hbm, ⟨7, _⟩ => ⟨S1024x4, .i32⟩
  | .hbm, ⟨8, _⟩ => ⟨S1024x4, .i1⟩
  | .hbm, ⟨9, _⟩ => ⟨S528x1024, .f32⟩
  | .hbm, ⟨10, _⟩ => ⟨S528x4x256, .f32⟩
  | .hbm, ⟨11, _⟩ => ⟨S_, .i32⟩
  | .hbm, ⟨12, _⟩ => ⟨S1024, .i32⟩
  | .hbm, ⟨13, _⟩ => ⟨S1024, .i32⟩
  | .hbm, ⟨14, _⟩ => ⟨S1024, .i32⟩
  | .hbm, ⟨15, _⟩ => ⟨S1024x1, .i32⟩
  | .hbm, ⟨16, _⟩ => ⟨S1024x4x256, .f32⟩
  | .hbm, ⟨17, _⟩ => ⟨S_, .i32⟩
  | .hbm, ⟨18, _⟩ => ⟨S1024x1, .i32⟩
  | .hbm, ⟨19, _⟩ => ⟨S1024x1, .i32⟩
  | .hbm, ⟨20, _⟩ => ⟨S1024x1, .i32⟩
  | .hbm, ⟨21, _⟩ => ⟨S_, .i32⟩
  | .hbm, ⟨22, _⟩ => ⟨S1024x4, .i32⟩
  | .hbm, ⟨23, _⟩ => ⟨S1024x4, .i32⟩
  | .hbm, ⟨24, _⟩ => ⟨S1024x4, .i32⟩
  | .hbm, ⟨25, _⟩ => ⟨S1024x4, .i32⟩
  | .hbm, ⟨26, _⟩ => ⟨S1024x4x1, .i32⟩
  | .hbm, ⟨27, _⟩ => ⟨S1024x4x1, .i32⟩
  | .hbm, ⟨28, _⟩ => ⟨S1024x4x2, .i32⟩
  | .hbm, ⟨29, _⟩ => ⟨S1024x4x256, .f32⟩
  | .hbm, ⟨30, _⟩ => ⟨S1024x1024, .f32⟩
  | .hbm, ⟨31, _⟩ => ⟨S1x256, .f32⟩
  | .hbm, ⟨32, _⟩ => ⟨S1x1x1x256, .f32⟩
  | .hbm, ⟨33, _⟩ => ⟨S1x1x4x256, .f32⟩
  | .hbm, ⟨34, _⟩ => ⟨S1x1024, .f32⟩
  | .hbm, ⟨35, _⟩ => ⟨S1025x1024, .f32⟩
  | .hbm, ⟨36, _⟩ => ⟨S1x1025x1024, .f32⟩
  | .hbm, ⟨37, _⟩ => ⟨S64x1025x1024, .f32⟩
  | .hbm, ⟨38, _⟩ => ⟨S64x1025x1024, .f32⟩
  | _, _ => ⟨S64x1025x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_c_1 : Ref sig .tc := ⟨.hbm, 5, rfl⟩
abbrev main_c_2 : Ref sig .tc := ⟨.hbm, 6, rfl⟩
abbrev main_c_3 : Ref sig .tc := ⟨.hbm, 7, rfl⟩
abbrev main_c_4 : Ref sig .tc := ⟨.hbm, 8, rfl⟩
abbrev main_v0 : Ref sig .tc := ⟨.hbm, 9, rfl⟩
abbrev main_v1 : Ref sig .tc := ⟨.hbm, 10, rfl⟩
abbrev main_c_5 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c_7 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩

abbrev nD : Nat := 1
abbrev τ : Topo := Topo.v7x

variable {F : FTy → Type} [FloatOps F]

class Facts₀ : Prop where
  shapeCasts_S1x528x1024_S528x1024 : S1x528x1024.ShapeCasts S528x1024
  shapeCasts_S528x1024_S528x4x256 : S528x1024.ShapeCasts S528x4x256
  bcast_S_S1024 : S_.BroadcastsInDim S1024 (![] : Fin 0 → Fin S1024.rank)
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S_S1024x4 : S_.BroadcastsInDim S1024x4 (![] : Fin 0 → Fin S1024x4.rank)
  bcast_S1024x1_S1024x4_0_1 : S1024x1.BroadcastsInDim S1024x4 (![0, 1] : Fin 2 → Fin S1024x4.rank)
  bcast_S1024x4_S1024x4x1_0_1 : S1024x4.BroadcastsInDim S1024x4x1 (![0, 1] : Fin 2 → Fin S1024x4x1.rank)
  concatenates_S1024x4x1_S1024x4x1_S1024x4x2_d2 : Shape.Concatenates [S1024x4x1, S1024x4x1] S1024x4x2 2
  shapeCasts_S1024x4x256_S1024x1024 : S1024x4x256.ShapeCasts S1024x1024
  shapeCasts_S1x1x256_S1x256 : S1x1x256.ShapeCasts S1x256
  shapeCasts_S1x256_S1x1x1x256 : S1x256.ShapeCasts S1x1x1x256
  bcast_S1x1x1x256_S1x1x4x256_0_1_2_3 : S1x1x1x256.BroadcastsInDim S1x1x4x256 (![0, 1, 2, 3] : Fin 4 → Fin S1x1x4x256.rank)
  shapeCasts_S1x1x4x256_S1x1024 : S1x1x4x256.ShapeCasts S1x1024
  concatenates_S1x1024_S1024x1024_S1025x1024_d0 : Shape.Concatenates [S1x1024, S1024x1024] S1025x1024 0
  bcast_S1025x1024_S1x1025x1024_1_2 : S1025x1024.BroadcastsInDim S1x1025x1024 (![1, 2] : Fin 2 → Fin S1x1025x1024.rank)
  bcast_S1x1025x1024_S64x1025x1024_0_1_2 : S1x1025x1024.BroadcastsInDim S64x1025x1024 (![0, 1, 2] : Fin 3 → Fin S64x1025x1024.rank)
  gather_S528x4x256_S1024x1_S1024x4x256_12_0_n_n_0_1_14256_wf : GatherDims.WF S528x4x256 S1024x1 S1024x4x256 [1, 2] [0] [] [0] [] 1 ![1, 4, 256]
  gather_S1024x4x256_S1024x4x2_S1024x4x256_2_01_n_n_01_2_11256_wf : GatherDims.WF S1024x4x256 S1024x4x2 S1024x4x256 [2] [0, 1] [] [0, 1] [] 2 ![1, 1, 256]

variable [Facts₀]

def gather_S528x4x256_S1024x1_S1024x4x256_12_0_n_n_0_1_14256 : GatherDims S528x4x256 S1024x1 S1024x4x256 where
  offsetDims := [1, 2]
  collapsedSliceDims := [0]
  operandBatchingDims := []
  startIndicesBatchingDims := []
  startIndexMap := [0]
  indexVectorDim := 1
  sliceSizes := ![1, 4, 256]
  wf := gather_S528x4x256_S1024x1_S1024x4x256_12_0_n_n_0_1_14256_wf
def gather_S1024x4x256_S1024x4x2_S1024x4x256_2_01_n_n_01_2_11256 : GatherDims S1024x4x256 S1024x4x2 S1024x4x256 where
  offsetDims := [2]
  collapsedSliceDims := [0, 1]
  operandBatchingDims := []
  startIndicesBatchingDims := []
  startIndexMap := [0, 1]
  indexVectorDim := 2
  sliceSizes := ![1, 1, 256]
  wf := gather_S1024x4x256_S1024x4x2_S1024x4x256_2_01_n_n_01_2_11256_wf

class Facts : Prop extends Facts₀ where

variable [Facts]
-- ==== Proof.KernelBody.lean ====
/-
  The frame of the kernel program as compiled: the one pallas_call adds, block by block, a (128, 1024) block of the
  position table to each of the sixteen (128, 1024) slabs of a (16, 128, 1024) block of `x`. The sequence axis
  has 1025 = 8·128 + 1 rows, so the ninth sequence block overhangs the arrays by 127 rows: its transfers are cut
  at the arrays' end, and what a staging buffer holds past the cut is not a function of the arrays.
-/
import proofs.«149279_j41120016892507_2_alg».proof.Proof.Gen.Kernel.Frame
import proofs.«149279_j41120016892507_2_alg».proof.Proof.Gen.Kernel.Skeleton
import Idealize.ShloMosaic.Lib.Pipeline.Kit
import Idealize.ShloMosaic.Lib.Pipeline.Value
import Idealize.ShloMosaic.Lib.ValueIdx
import Idealize.ShloMosaic.Lib.ValueLayout
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The block of `x` at point `t`, filled out past the arrays' end with the zero word. -/
def xin (c : Dev nD) (t : Fin cfg0.N) : S16x128x1024.Idx → Elt F .f32 :=
  win0_0.fill (grid0.coords t) (fun _ => Scalar.ofBits .f32 0#32) (iblk m c 0 t)

/-- The block of the position table at point `t`, filled out likewise. -/
def pin (c : Dev nD) (t : Fin cfg0.N) : S128x1024.Idx → Elt F .f32 :=
  win0_1.fill (grid0.coords t) (fun _ => Scalar.ofBits .f32 0#32) (iblk m c 1 t)

/-- The proof data: the arrays as the region finds them; after the body the two inputs' buffers at their
    filled-out blocks and the result's at the body's sum of those. -/
def dats (_ : Fin 1) (c : Dev nD) : Dat τ (Elt F) Unit ℕ (UR sig nD τ) ℕ cfg0 c where
  A w := V m c (Pipeline.arrRef spec0 w)
  after w t := match w with
    | ⟨0, _⟩ => xin m c t
    | ⟨1, _⟩ => pin m c t
    | ⟨2, _⟩ => k0_pay1 (xin m c t) (pin m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = xin m c t := by dsimp only [dats]
theorem after0_1 (c : Dev nD) (t : Fin cfg0.N) : (dats m 0 c).after 1 t = pin m c t := by dsimp only [dats]
theorem after0_2 (c : Dev nD) (t : Fin cfg0.N) : (dats m 0 c).after 2 t = k0_pay1 (xin m c t) (pin m c t) := by
  dsimp only [dats]

/-- The body's sum read at an entry: the entry of the `x` block plus the entry of the table block in the same
    row and lane. -/
theorem pay_apply (X0 : Vec F S16x128x1024 .f32) (X1 : Vec F S128x1024 .f32) (b : Fin 16) (r : Fin 128) (l : Fin 1024) :
    k0_pay1 X0 X1 (ValueIdx.ix3 b r l) = FloatOps.addf (X0 (ValueIdx.ix3 b r l)) (X1 (ValueIdx.ix2 r l)) := by
  -- the sum is lane-wise; its second operand is the table block seen as one slab and repeated over the sixteen
  -- slabs: the same-shape cast is the identity, the broadcast reads slab 0, the added unit axis reads (row, lane)
  unfold k0_pay1
  show FloatOps.addf (X0 (ValueIdx.ix3 b r l))
      (broadcastTo S16x128x1024 (shapeCast S1x128x1024 (shapeCast S128x1024 X1 shapeCasts_S128x1024_S128x1024)
        shapeCasts_S128x1024_S1x128x1024) broadcasts_S1x128x1024_S16x128x1024 (ValueIdx.ix3 b r l)) = _
  refine congrArg (FloatOps.addf (X0 (ValueIdx.ix3 b r l))) ?_
  rw [shapeCast_self]
  refine (broadcastTo_apply _ broadcasts_S1x128x1024_S16x128x1024 (ValueIdx.ix3 b r l)
    (ValueIdx.ix3 (0 : Fin 1) r l) (fun a => ?_)).trans ?_
  · match a with
    | ⟨0, _⟩ => rfl
    | ⟨1, _⟩ => rfl
    | ⟨2, _⟩ => rfl
  · exact ValueIdx.shapeCast_ab_1ab_apply X1 shapeCasts_S128x1024_S1x128x1024 0 r l

/-! ## What the body finds in each staging buffer -/

/-- The buffer of `x` has just been fetched at every point: it holds the block of `x` on the rows inside the array
    and whatever it held, `d`, on the rows past the array's end. -/
theorem before0_0 (c : Dev nD) (t : Fin cfg0.N) (d) :
    (dats m 0 c).before 0 t d = win0_0.fill (grid0.coords t) d (iblk m c 0 t) := by
  rw [(dats m 0 c).before_fetched 0 t (fetch0_0 t) d]
  unfold Dat.fetched Dat.blockOf iblk
  rw [A_eq]

/-- Where the table's blocks are cut depends on the block index alone: the cut on an axis is computed from the block
    index there, the block size and the array's length. -/
theorem clip1_of_index : ∀ t t' : Fin cfg0.N, (cfg0.win 1).index t = (cfg0.win 1).index t' →
    (cfg0.win 1).clip (cfg0.grid.coords t) = (cfg0.win 1).clip (cfg0.grid.coords t') := by
  intro t t' h
  funext a
  show Pipeline.Clip.of (win0_1.index t a) _ _ = Pipeline.Clip.of (win0_1.index t' a) _ _
  rw [show win0_1.index t = win0_1.index t' from h]

/-- The body only reads the table's buffer: on the rows inside the array it is left at the table's block. -/
theorem keep0_1 (c : Dev nD) (t : Fin cfg0.N) :
    (cfg0.win 1).cut (cfg0.grid.coords t) ((dats m 0 c).after 1 t) = (dats m 0 c).blockOf 1 t := by
  rw [after0_1]; unfold pin
  refine (win0_1.cut_fill _ _ _).trans ?_
  unfold Dat.blockOf iblk
  rw [A_eq]

/-- The table's buffer is fetched only when the sequence block changes (every fourth point); at the points between,
    the block index has not moved and the buffer still holds that block on the rows inside the array. Either way it
    holds the table's block there and some `d` past the array's end. -/
theorem before0_1 (c : Dev nD) (t : Fin cfg0.N) (d) :
    (dats m 0 c).before 1 t d = win0_1.fill (grid0.coords t) d (iblk m c 1 t) := by
  rw [(dats m 0 c).before_in_eq_fetched 1 rfl (fun _ => rfl) clip1_of_index (keep0_1 m c) t d]
  unfold Dat.fetched Dat.blockOf iblk
  rw [A_eq]

/-- The result's buffer is written back at every point, so at every point the body finds it at contents nothing
    names. -/
theorem before0_2 (c : Dev nD) (t : Fin cfg0.N) (d) : (dats m 0 c).before 2 t d = d := by
  refine (dats m 0 c).before_out_reset 2 rfl t ?_ d
  by_cases h : t.val = 0
  · exact .inl h
  · exact .inr ⟨h, flush0_2 _⟩

/-! ## The sum on the rows inside the array -/

/-- Two fillings of one block agree at every entry the transfer moves: there both read the block. -/
theorem fill_agree {G : Pipeline.Grid} (w : Window sig G) {α : Type} (i : G.Coords) (d d' : w.block.Idx → α)
    (g : (w.xblock i).Idx → α) (y : w.block.Idx) (h : ∀ a, (y a).val < w.xsize i a) :
    w.fill i d g y = w.fill i d' g y := by
  have hm := (w.moved_iff i y).mpr h
  unfold Window.fill; rw [dif_pos hm, dif_pos hm]

/-- How much of a block is moved, at each of the 36 points: the table's rows are cut as the rows of `x` and of the
    result are (the sequence axis is axis 0 of the table and axis 1 of the other two, with one block size and one
    array length), the table's lanes are never cut, and `x` and the result are cut alike on every axis. -/
theorem xsize_facts : ∀ t : Fin cfg0.N,
    win0_1.xsize (grid0.coords t) 0 = win0_2.xsize (grid0.coords t) 1
    ∧ win0_1.xsize (grid0.coords t) 1 = 1024
    ∧ win0_0.xsize (grid0.coords t) = win0_2.xsize (grid0.coords t) :=
  (by decide +kernel : ∀ t : Fin grid0.N,
    win0_1.xsize (grid0.coords t) 0 = win0_2.xsize (grid0.coords t) 1
    ∧ win0_1.xsize (grid0.coords t) 1 = 1024
    ∧ win0_0.xsize (grid0.coords t) = win0_2.xsize (grid0.coords t))

/-- On the part of the result's block that is written back, the body's sum does not depend on what the two input
    buffers hold past the arrays' end: an entry (slab, row, lane) written back has its row inside the array, so the
    entry of `x`'s buffer it reads is one the fetch moved, and so is the entry (row, lane) of the table's buffer. -/
theorem cut_pay_fill (t : Fin cfg0.N) (d0 d0' : S16x128x1024.Idx → Elt F .f32)
    (g0 : (win0_0.xblock (grid0.coords t)).Idx → Elt F .f32) (d1 d1' : S128x1024.Idx → Elt F .f32)
    (g1 : (win0_1.xblock (grid0.coords t)).Idx → Elt F .f32) :
    win0_2.cut (grid0.coords t) (k0_pay1 (win0_0.fill (grid0.coords t) d0 g0) (win0_1.fill (grid0.coords t) d1 g1))
      = win0_2.cut (grid0.coords t) (k0_pay1 (win0_0.fill (grid0.coords t) d0' g0) (win0_1.fill (grid0.coords t) d1' g1)) := by
  funext j
  obtain ⟨h10, h11, h02⟩ := xsize_facts t
  have hj : ∀ a, ((win0_2.xinj (grid0.coords t) j) a).val < win0_2.xsize (grid0.coords t) a := fun a => (j a).isLt
  show k0_pay1 _ _ (win0_2.xinj (grid0.coords t) j) = k0_pay1 _ _ (win0_2.xinj (grid0.coords t) j)
  generalize win0_2.xinj (grid0.coords t) j = y at hj
  have hy : y = ValueIdx.ix3 (n0 := 16) (n1 := 128) (n2 := 1024) (y 0) (y 1) (y 2) := ValueIdx.eq_ix3 y
  have e0 : win0_0.fill (grid0.coords t) d0 g0 y = win0_0.fill (grid0.coords t) d0' g0 y :=
    fill_agree win0_0 (grid0.coords t) d0 d0' g0 y (fun a => by rw [h02]; exact hj a)
  have e1 : win0_1.fill (grid0.coords t) d1 g1 (ValueIdx.ix2 (n0 := 128) (n1 := 1024) (y 1) (y 2))
      = win0_1.fill (grid0.coords t) d1' g1 (ValueIdx.ix2 (n0 := 128) (n1 := 1024) (y 1) (y 2)) :=
    fill_agree win0_1 (grid0.coords t) d1 d1' g1 _ (fun a => match a with
      | ⟨0, _⟩ => Nat.lt_of_lt_of_eq (hj 1) h10.symm
      | ⟨1, _⟩ => Nat.lt_of_lt_of_eq (y 2).isLt h11.symm)
  refine (congrArg (k0_pay1 _ _) hy).trans (((pay_apply _ _ (y 0) (y 1) (y 2)).trans ?_).trans
    ((pay_apply _ _ (y 0) (y 1) (y 2)).symm.trans (congrArg (k0_pay1 _ _) hy.symm)))
  rw [← hy, e0, e1]

/-! ## The body on whole buffers -/

/-- The body's accesses: each of its three loads and its one store is of a whole buffer, at offsets zero. -/
abbrev r0_0 : Rect S16x128x1024 := Rect.unit (s := S16x128x1024) ![0, 0, 0] S16x128x1024.size inb_S16x128x1024_S16x128x1024_0_0_0
abbrev r1_0 : Rect S128x1024 := Rect.unit (s := S128x1024) ![0, 0] S128x1024.size inb_S128x1024_S128x1024_0_0

set_option maxHeartbeats 1000000 in
/-- The body on three whole buffers, the first two holding `x0` and `x1` and the third anything: it loads the first
    two, loads the third (the value is not used), and stores the sum over the whole third; the first two are left
    as they were and the third holds the sum of `x0` and `x1`. -/
theorem sound_kernel (c : Dev nD) (E : Set ℕ) (i : grid0.Coords)
    (arg2 : Memref sig .tc .vmem S16x128x1024 .f32) (harg2 : arg2.IsWhole)
    (arg3 : Memref sig .tc .vmem S128x1024 .f32) (harg3 : arg3.IsWhole)
    (arg4 : Memref sig .tc .vmem S16x128x1024 .f32) (harg4 : arg4.IsWhole)
    (x0 : Vec F S16x128x1024 .f32) (x1 : Vec F S128x1024 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (k0_pay1 x0 x1)) -∗ K ⟨⟩))
      ⊢ wp frame (wpE (defs₀ (F := F)) Variants.none c none) E (cc0__add_kernel i arg2 harg2 arg3 harg3 arg4 harg4) K := by
  simp only [cc0__add_kernel_eq_skeleton]; unfold cc0__add_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  -- the one store covers the buffer, so the buffer reads its payload; each load reads its buffer whole
  have hz : (![0, 0, 0] : Fin 3 → Nat) = fun _ => 0 := funext fun a => by fin_cases a <;> rfl
  have hz2 : (![0, 0] : Fin 2 → Nat) = fun _ => 0 := funext fun a => by fin_cases a <;> rfl
  refine (View.read_writes_eq_canon _ _ _ (fun y => ⟨_, List.mem_singleton_self _,
    View.mem_set_unit_zero hz inb_S16x128x1024_S16x128x1024_0_0_0 y⟩)).trans ?_
  refine (View.canon_unit_zero hz inb_S16x128x1024_S16x128x1024_0_0_0 _).trans ?_
  show k0_pay1 (View.ld (View.read (Elt F) arg2.view f0) r0_0) (View.ld (View.read (Elt F) arg3.view f1) r1_0) = _
  rw [View.ld_unit_zero hz, View.ld_unit_zero hz2]

/-! ## The body obligation, at a generic point -/

/-- What the two inputs' buffers are left at, on the part their transfers move: their blocks. -/
theorem leaves0_0 (c : Dev nD) (t : Fin cfg0.N) (d : S16x128x1024.Idx → Elt F .f32) :
    win0_0.fill (grid0.coords t) d (win0_0.cut (grid0.coords t) ((dats m 0 c).after 0 t))
      = win0_0.fill (grid0.coords t) d (iblk m c 0 t) := by
  rw [after0_0]; unfold xin; rw [Window.cut_fill]

theorem leaves0_1 (c : Dev nD) (t : Fin cfg0.N) (d : S128x1024.Idx → Elt F .f32) :
    win0_1.fill (grid0.coords t) d (win0_1.cut (grid0.coords t) ((dats m 0 c).after 1 t))
      = win0_1.fill (grid0.coords t) d (iblk m c 1 t) := by
  rw [after0_1]; unfold pin; rw [Window.cut_fill]

/-- The result's buffer holds the sum of what the inputs' buffers held; on the part its write-back moves that is
    the sum of the filled-out blocks, the fillers playing no part there. -/
theorem leaves0_2 (c : Dev nD) (t : Fin cfg0.N) (d0 : S16x128x1024.Idx → Elt F .f32) (d1 : S128x1024.Idx → Elt F .f32) :
    win0_2.fill (grid0.coords t)
        (k0_pay1 (win0_0.fill (grid0.coords t) d0 (iblk m c 0 t)) (win0_1.fill (grid0.coords t) d1 (iblk m c 1 t)))
        (win0_2.cut (grid0.coords t) ((dats m 0 c).after 2 t))
      = k0_pay1 (win0_0.fill (grid0.coords t) d0 (iblk m c 0 t)) (win0_1.fill (grid0.coords t) d1 (iblk m c 1 t)) := by
  rw [after0_2]; unfold xin pin
  exact win0_2.fill_congr_cut (grid0.coords t)
    (cut_pay_fill t d0 (fun _ => Scalar.ofBits .f32 0#32) (iblk m c 0 t) d1 (fun _ => Scalar.ofBits .f32 0#32) (iblk m c 1 t))

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns: each buffer stated on the part its window's transfers move. -/
def bodyPost (c : Dev nD) (t : Fin cfg0.N) : sProp 𝕄 :=
  iprop((dats m 0 c).Φ t.succ ∗ (dats m 0 c).owesAt () t.succ
    ∗ (∃ d, owns (c : Thread nD τ) (st0_0 t) fullShare
        (win0_0.fill (grid0.coords t) d (win0_0.cut (grid0.coords t) ((dats m 0 c).after 0 t))))
    ∗ (∃ d, owns (c : Thread nD τ) (st0_1 t) fullShare
        (win0_1.fill (grid0.coords t) d (win0_1.cut (grid0.coords t) ((dats m 0 c).after 1 t))))
    ∗ (∃ d, owns (c : Thread nD τ) (st0_2 t) fullShare
        (win0_2.fill (grid0.coords t) d (win0_2.cut (grid0.coords t) ((dats m 0 c).after 2 t)))))

/-- The body at any point: the inputs' buffers hold their blocks filled out with some words past the arrays' end, the
    result's anything; afterwards the inputs' are as they were and the result's holds their sum, which on the part
    written back is the sum of the blocks filled out with the zero word. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩⟩
  rw [before0_0 m c t d0, before0_1 m c t d1, before0_2 m c t d2]
  iapply (sound_kernel c Set.univ (grid0.coords t) _ _ _ _ _ _
    (win0_0.fill (grid0.coords t) d0 (iblk m c 0 t)) (win0_1.fill (grid0.coords t) d1 (iblk m c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · iexists d0; rw [leaves0_0 m c t d0]; iexact H0
  isplitl [H1]
  · iexists d1; rw [leaves0_1 m c t d1]; iexact H1
  · iexists k0_pay1 (win0_0.fill (grid0.coords t) d0 (iblk m c 0 t)) (win0_1.fill (grid0.coords t) d1 (iblk m c 1 t))
    rw [leaves0_2 m c t d0 d1]; iexact H2

/-- The body obligation at every point, each window stated on the part its transfers move. -/
theorem body_obligation (c : Dev nD) :
    BodyObligationLoose (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, with every array of the
    pipeline at what the proof data computes and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := body_obligation m) (hshare := fun c => (dats m 0 c).share_full fun _ => rfl)
    (howed := fun _ _ => rfl) (V := V m) (hmain := hmain m Variants.none) (hA := A_eq m) (hΦ := fun _ _ => rfl)

/-- The program runs to the end, faults nowhere and leaves its three argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Body

end
-- ==== Proof.KernelIdealBody.lean ====
/-
  The frame of the idealized kernel program: the one pallas_call adds, block by block, a (128, 1024) block of the
  position table to each of the sixteen (128, 1024) slabs of a (16, 128, 1024) block of `x`. The sequence axis
  has 1025 = 8·128 + 1 rows, so the ninth sequence block overhangs the arrays by 127 rows: its transfers are cut
  at the arrays' end, and what a staging buffer holds past the cut is not a function of the arrays.
-/
import proofs.«149279_j41120016892507_2_alg».proof.Proof.Gen.KernelIdeal.Frame
import proofs.«149279_j41120016892507_2_alg».proof.Proof.Gen.KernelIdeal.Skeleton
import Idealize.ShloMosaic.Lib.Pipeline.Kit
import Idealize.ShloMosaic.Lib.Pipeline.Value
import Idealize.ShloMosaic.Lib.ValueIdx
import Idealize.ShloMosaic.Lib.ValueLayout
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The block of `x` at point `t`, filled out past the arrays' end with the zero word. -/
def xin (c : Dev nD) (t : Fin cfg0.N) : S16x128x1024.Idx → Elt F .f32 :=
  win0_0.fill (grid0.coords t) (fun _ => Scalar.ofBits .f32 0#32) (iblk m c 0 t)

/-- The block of the position table at point `t`, filled out likewise. -/
def pin (c : Dev nD) (t : Fin cfg0.N) : S128x1024.Idx → Elt F .f32 :=
  win0_1.fill (grid0.coords t) (fun _ => Scalar.ofBits .f32 0#32) (iblk m c 1 t)

/-- The proof data: the arrays as the region finds them; after the body the two inputs' buffers at their
    filled-out blocks and the result's at the body's sum of those. -/
def dats (_ : Fin 1) (c : Dev nD) : Dat τ (Elt F) Unit ℕ (UR sig nD τ) ℕ cfg0 c where
  A w := V m c (Pipeline.arrRef spec0 w)
  after w t := match w with
    | ⟨0, _⟩ => xin m c t
    | ⟨1, _⟩ => pin m c t
    | ⟨2, _⟩ => k0_pay1 (xin m c t) (pin m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = xin m c t := by dsimp only [dats]
theorem after0_1 (c : Dev nD) (t : Fin cfg0.N) : (dats m 0 c).after 1 t = pin m c t := by dsimp only [dats]
theorem after0_2 (c : Dev nD) (t : Fin cfg0.N) : (dats m 0 c).after 2 t = k0_pay1 (xin m c t) (pin m c t) := by
  dsimp only [dats]

/-- The body's sum read at an entry: the entry of the `x` block plus the entry of the table block in the same
    row and lane. -/
theorem pay_apply (X0 : Vec F S16x128x1024 .f32) (X1 : Vec F S128x1024 .f32) (b : Fin 16) (r : Fin 128) (l : Fin 1024) :
    k0_pay1 X0 X1 (ValueIdx.ix3 b r l) = FloatOps.addf (X0 (ValueIdx.ix3 b r l)) (X1 (ValueIdx.ix2 r l)) := by
  -- the sum is lane-wise; its second operand is the table block seen as one slab and repeated over the sixteen
  -- slabs: the same-shape cast is the identity, the broadcast reads slab 0, the added unit axis reads (row, lane)
  unfold k0_pay1
  show FloatOps.addf (X0 (ValueIdx.ix3 b r l))
      (broadcastTo S16x128x1024 (shapeCast S1x128x1024 (shapeCast S128x1024 X1 shapeCasts_S128x1024_S128x1024)
        shapeCasts_S128x1024_S1x128x1024) broadcasts_S1x128x1024_S16x128x1024 (ValueIdx.ix3 b r l)) = _
  refine congrArg (FloatOps.addf (X0 (ValueIdx.ix3 b r l))) ?_
  rw [shapeCast_self]
  refine (broadcastTo_apply _ broadcasts_S1x128x1024_S16x128x1024 (ValueIdx.ix3 b r l)
    (ValueIdx.ix3 (0 : Fin 1) r l) (fun a => ?_)).trans ?_
  · match a with
    | ⟨0, _⟩ => rfl
    | ⟨1, _⟩ => rfl
    | ⟨2, _⟩ => rfl
  · exact ValueIdx.shapeCast_ab_1ab_apply X1 shapeCasts_S128x1024_S1x128x1024 0 r l

/-! ## What the body finds in each staging buffer -/

/-- The buffer of `x` has just been fetched at every point: it holds the block of `x` on the rows inside the array
    and whatever it held, `d`, on the rows past the array's end. -/
theorem before0_0 (c : Dev nD) (t : Fin cfg0.N) (d) :
    (dats m 0 c).before 0 t d = win0_0.fill (grid0.coords t) d (iblk m c 0 t) := by
  rw [(dats m 0 c).before_fetched 0 t (fetch0_0 t) d]
  unfold Dat.fetched Dat.blockOf iblk
  rw [A_eq]

/-- Where the table's blocks are cut depends on the block index alone: the cut on an axis is computed from the block
    index there, the block size and the array's length. -/
theorem clip1_of_index : ∀ t t' : Fin cfg0.N, (cfg0.win 1).index t = (cfg0.win 1).index t' →
    (cfg0.win 1).clip (cfg0.grid.coords t) = (cfg0.win 1).clip (cfg0.grid.coords t') := by
  intro t t' h
  funext a
  show Pipeline.Clip.of (win0_1.index t a) _ _ = Pipeline.Clip.of (win0_1.index t' a) _ _
  rw [show win0_1.index t = win0_1.index t' from h]

/-- The body only reads the table's buffer: on the rows inside the array it is left at the table's block. -/
theorem keep0_1 (c : Dev nD) (t : Fin cfg0.N) :
    (cfg0.win 1).cut (cfg0.grid.coords t) ((dats m 0 c).after 1 t) = (dats m 0 c).blockOf 1 t := by
  rw [after0_1]; unfold pin
  refine (win0_1.cut_fill _ _ _).trans ?_
  unfold Dat.blockOf iblk
  rw [A_eq]

/-- The table's buffer is fetched only when the sequence block changes (every fourth point); at the points between,
    the block index has not moved and the buffer still holds that block on the rows inside the array. Either way it
    holds the table's block there and some `d` past the array's end. -/
theorem before0_1 (c : Dev nD) (t : Fin cfg0.N) (d) :
    (dats m 0 c).before 1 t d = win0_1.fill (grid0.coords t) d (iblk m c 1 t) := by
  rw [(dats m 0 c).before_in_eq_fetched 1 rfl (fun _ => rfl) clip1_of_index (keep0_1 m c) t d]
  unfold Dat.fetched Dat.blockOf iblk
  rw [A_eq]

/-- The result's buffer is written back at every point, so at every point the body finds it at contents nothing
    names. -/
theorem before0_2 (c : Dev nD) (t : Fin cfg0.N) (d) : (dats m 0 c).before 2 t d = d := by
  refine (dats m 0 c).before_out_reset 2 rfl t ?_ d
  by_cases h : t.val = 0
  · exact .inl h
  · exact .inr ⟨h, flush0_2 _⟩

/-! ## The sum on the rows inside the array -/

/-- Two fillings of one block agree at every entry the transfer moves: there both read the block. -/
theorem fill_agree {G : Pipeline.Grid} (w : Window sig G) {α : Type} (i : G.Coords) (d d' : w.block.Idx → α)
    (g : (w.xblock i).Idx → α) (y : w.block.Idx) (h : ∀ a, (y a).val < w.xsize i a) :
    w.fill i d g y = w.fill i d' g y := by
  have hm := (w.moved_iff i y).mpr h
  unfold Window.fill; rw [dif_pos hm, dif_pos hm]

/-- How much of a block is moved, at each of the 36 points: the table's rows are cut as the rows of `x` and of the
    result are (the sequence axis is axis 0 of the table and axis 1 of the other two, with one block size and one
    array length), the table's lanes are never cut, and `x` and the result are cut alike on every axis. -/
theorem xsize_facts : ∀ t : Fin cfg0.N,
    win0_1.xsize (grid0.coords t) 0 = win0_2.xsize (grid0.coords t) 1
    ∧ win0_1.xsize (grid0.coords t) 1 = 1024
    ∧ win0_0.xsize (grid0.coords t) = win0_2.xsize (grid0.coords t) :=
  (by decide +kernel : ∀ t : Fin grid0.N,
    win0_1.xsize (grid0.coords t) 0 = win0_2.xsize (grid0.coords t) 1
    ∧ win0_1.xsize (grid0.coords t) 1 = 1024
    ∧ win0_0.xsize (grid0.coords t) = win0_2.xsize (grid0.coords t))

/-- On the part of the result's block that is written back, the body's sum does not depend on what the two input
    buffers hold past the arrays' end: an entry (slab, row, lane) written back has its row inside the array, so the
    entry of `x`'s buffer it reads is one the fetch moved, and so is the entry (row, lane) of the table's buffer. -/
theorem cut_pay_fill (t : Fin cfg0.N) (d0 d0' : S16x128x1024.Idx → Elt F .f32)
    (g0 : (win0_0.xblock (grid0.coords t)).Idx → Elt F .f32) (d1 d1' : S128x1024.Idx → Elt F .f32)
    (g1 : (win0_1.xblock (grid0.coords t)).Idx → Elt F .f32) :
    win0_2.cut (grid0.coords t) (k0_pay1 (win0_0.fill (grid0.coords t) d0 g0) (win0_1.fill (grid0.coords t) d1 g1))
      = win0_2.cut (grid0.coords t) (k0_pay1 (win0_0.fill (grid0.coords t) d0' g0) (win0_1.fill (grid0.coords t) d1' g1)) := by
  funext j
  obtain ⟨h10, h11, h02⟩ := xsize_facts t
  have hj : ∀ a, ((win0_2.xinj (grid0.coords t) j) a).val < win0_2.xsize (grid0.coords t) a := fun a => (j a).isLt
  show k0_pay1 _ _ (win0_2.xinj (grid0.coords t) j) = k0_pay1 _ _ (win0_2.xinj (grid0.coords t) j)
  generalize win0_2.xinj (grid0.coords t) j = y at hj
  have hy : y = ValueIdx.ix3 (n0 := 16) (n1 := 128) (n2 := 1024) (y 0) (y 1) (y 2) := ValueIdx.eq_ix3 y
  have e0 : win0_0.fill (grid0.coords t) d0 g0 y = win0_0.fill (grid0.coords t) d0' g0 y :=
    fill_agree win0_0 (grid0.coords t) d0 d0' g0 y (fun a => by rw [h02]; exact hj a)
  have e1 : win0_1.fill (grid0.coords t) d1 g1 (ValueIdx.ix2 (n0 := 128) (n1 := 1024) (y 1) (y 2))
      = win0_1.fill (grid0.coords t) d1' g1 (ValueIdx.ix2 (n0 := 128) (n1 := 1024) (y 1) (y 2)) :=
    fill_agree win0_1 (grid0.coords t) d1 d1' g1 _ (fun a => match a with
      | ⟨0, _⟩ => Nat.lt_of_lt_of_eq (hj 1) h10.symm
      | ⟨1, _⟩ => Nat.lt_of_lt_of_eq (y 2).isLt h11.symm)
  refine (congrArg (k0_pay1 _ _) hy).trans (((pay_apply _ _ (y 0) (y 1) (y 2)).trans ?_).trans
    ((pay_apply _ _ (y 0) (y 1) (y 2)).symm.trans (congrArg (k0_pay1 _ _) hy.symm)))
  rw [← hy, e0, e1]

/-! ## The body on whole buffers -/

/-- The body's accesses: each of its three loads and its one store is of a whole buffer, at offsets zero. -/
abbrev r0_0 : Rect S16x128x1024 := Rect.unit (s := S16x128x1024) ![0, 0, 0] S16x128x1024.size inb_S16x128x1024_S16x128x1024_0_0_0
abbrev r1_0 : Rect S128x1024 := Rect.unit (s := S128x1024) ![0, 0] S128x1024.size inb_S128x1024_S128x1024_0_0

set_option maxHeartbeats 1000000 in
/-- The body on three whole buffers, the first two holding `x0` and `x1` and the third anything: it loads the first
    two, loads the third (the value is not used), and stores the sum over the whole third; the first two are left
    as they were and the third holds the sum of `x0` and `x1`. -/
theorem sound_kernel (c : Dev nD) (E : Set ℕ) (i : grid0.Coords)
    (arg2 : Memref sig .tc .vmem S16x128x1024 .f32) (harg2 : arg2.IsWhole)
    (arg3 : Memref sig .tc .vmem S128x1024 .f32) (harg3 : arg3.IsWhole)
    (arg4 : Memref sig .tc .vmem S16x128x1024 .f32) (harg4 : arg4.IsWhole)
    (x0 : Vec F S16x128x1024 .f32) (x1 : Vec F S128x1024 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1
            ∗ owns (c : Thread nD τ) arg4 fullShare (k0_pay1 x0 x1)) -∗ K ⟨⟩))
      ⊢ wp frame (wpE (defs₀ (F := F)) Variants.none c none) E (cc0__add_kernel i arg2 harg2 arg3 harg3 arg4 harg4) K := by
  simp only [cc0__add_kernel_eq_skeleton]; unfold cc0__add_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  -- the one store covers the buffer, so the buffer reads its payload; each load reads its buffer whole
  have hz : (![0, 0, 0] : Fin 3 → Nat) = fun _ => 0 := funext fun a => by fin_cases a <;> rfl
  have hz2 : (![0, 0] : Fin 2 → Nat) = fun _ => 0 := funext fun a => by fin_cases a <;> rfl
  refine (View.read_writes_eq_canon _ _ _ (fun y => ⟨_, List.mem_singleton_self _,
    View.mem_set_unit_zero hz inb_S16x128x1024_S16x128x1024_0_0_0 y⟩)).trans ?_
  refine (View.canon_unit_zero hz inb_S16x128x1024_S16x128x1024_0_0_0 _).trans ?_
  show k0_pay1 (View.ld (View.read (Elt F) arg2.view f0) r0_0) (View.ld (View.read (Elt F) arg3.view f1) r1_0) = _
  rw [View.ld_unit_zero hz, View.ld_unit_zero hz2]

/-! ## The body obligation, at a generic point -/

/-- What the two inputs' buffers are left at, on the part their transfers move: their blocks. -/
theorem leaves0_0 (c : Dev nD) (t : Fin cfg0.N) (d : S16x128x1024.Idx → Elt F .f32) :
    win0_0.fill (grid0.coords t) d (win0_0.cut (grid0.coords t) ((dats m 0 c).after 0 t))
      = win0_0.fill (grid0.coords t) d (iblk m c 0 t) := by
  rw [after0_0]; unfold xin; rw [Window.cut_fill]

theorem leaves0_1 (c : Dev nD) (t : Fin cfg0.N) (d : S128x1024.Idx → Elt F .f32) :
    win0_1.fill (grid0.coords t) d (win0_1.cut (grid0.coords t) ((dats m 0 c).after 1 t))
      = win0_1.fill (grid0.coords t) d (iblk m c 1 t) := by
  rw [after0_1]; unfold pin; rw [Window.cut_fill]

/-- The result's buffer holds the sum of what the inputs' buffers held; on the part its write-back moves that is
    the sum of the filled-out blocks, the fillers playing no part there. -/
theorem leaves0_2 (c : Dev nD) (t : Fin cfg0.N) (d0 : S16x128x1024.Idx → Elt F .f32) (d1 : S128x1024.Idx → Elt F .f32) :
    win0_2.fill (grid0.coords t)
        (k0_pay1 (win0_0.fill (grid0.coords t) d0 (iblk m c 0 t)) (win0_1.fill (grid0.coords t) d1 (iblk m c 1 t)))
        (win0_2.cut (grid0.coords t) ((dats m 0 c).after 2 t))
      = k0_pay1 (win0_0.fill (grid0.coords t) d0 (iblk m c 0 t)) (win0_1.fill (grid0.coords t) d1 (iblk m c 1 t)) := by
  rw [after0_2]; unfold xin pin
  exact win0_2.fill_congr_cut (grid0.coords t)
    (cut_pay_fill t d0 (fun _ => Scalar.ofBits .f32 0#32) (iblk m c 0 t) d1 (fun _ => Scalar.ofBits .f32 0#32) (iblk m c 1 t))

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns: each buffer stated on the part its window's transfers move. -/
def bodyPost (c : Dev nD) (t : Fin cfg0.N) : sProp 𝕄 :=
  iprop((dats m 0 c).Φ t.succ ∗ (dats m 0 c).owesAt () t.succ
    ∗ (∃ d, owns (c : Thread nD τ) (st0_0 t) fullShare
        (win0_0.fill (grid0.coords t) d (win0_0.cut (grid0.coords t) ((dats m 0 c).after 0 t))))
    ∗ (∃ d, owns (c : Thread nD τ) (st0_1 t) fullShare
        (win0_1.fill (grid0.coords t) d (win0_1.cut (grid0.coords t) ((dats m 0 c).after 1 t))))
    ∗ (∃ d, owns (c : Thread nD τ) (st0_2 t) fullShare
        (win0_2.fill (grid0.coords t) d (win0_2.cut (grid0.coords t) ((dats m 0 c).after 2 t)))))

/-- The body at any point: the inputs' buffers hold their blocks filled out with some words past the arrays' end, the
    result's anything; afterwards the inputs' are as they were and the result's holds their sum, which on the part
    written back is the sum of the blocks filled out with the zero word. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩⟩
  rw [before0_0 m c t d0, before0_1 m c t d1, before0_2 m c t d2]
  iapply (sound_kernel c Set.univ (grid0.coords t) _ _ _ _ _ _
    (win0_0.fill (grid0.coords t) d0 (iblk m c 0 t)) (win0_1.fill (grid0.coords t) d1 (iblk m c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · iexists d0; rw [leaves0_0 m c t d0]; iexact H0
  isplitl [H1]
  · iexists d1; rw [leaves0_1 m c t d1]; iexact H1
  · iexists k0_pay1 (win0_0.fill (grid0.coords t) d0 (iblk m c 0 t)) (win0_1.fill (grid0.coords t) d1 (iblk m c 1 t))
    rw [leaves0_2 m c t d0 d1]; iexact H2

/-- The body obligation at every point, each window stated on the part its transfers move. -/
theorem body_obligation (c : Dev nD) :
    BodyObligationLoose (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, with every array of the
    pipeline at what the proof data computes and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := body_obligation m) (hshare := fun c => (dats m 0 c).share_full fun _ => rfl)
    (howed := fun _ _ => rfl) (V := V m) (hmain := hmain m Variants.none) (hA := A_eq m) (hΦ := fun _ _ => rfl)

/-- The program runs to the end, faults nowhere and leaves its three argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Body

end
-- ==== Proof.KernelIdealSum.lean ====
/-
  The target of the value claim, `x + table[None]`, as the reference spells it (the table given a leading unit
  axis, repeated along the batch, added to `x`), and its reading at an index.
-/
import proofs.«149279_j41120016892507_2_alg».proof.Proof.Gen.KernelIdeal
import Idealize.ShloMosaic.Lib.Pipeline.Value
import Idealize.ShloMosaic.Lib.ValueIdx

noncomputable section

namespace Cert.KernelIdeal.Val

open Cert.KernelIdeal
open Idealize.ShloMosaic
open Idealize.ShloMosaic.ValueIdx

variable {F : FTy → Type} [FloatOps F]

/-- The shape of the table with a leading unit axis, as the reference broadcasts it. -/
abbrev S1x1025x1024 : Shape := ⟨3, ![1, 1025, 1024]⟩

theorem bcast_row : S1025x1024.BroadcastsInDim S1x1025x1024 (![1, 2] : Fin 2 → Fin S1x1025x1024.rank) := by decide
theorem bcast_batch : S1x1025x1024.BroadcastsInDim S64x1025x1024 (![0, 1, 2] : Fin 3 → Fin S64x1025x1024.rank) := by decide

/-- `x + table[None]`: the table given a leading unit axis, repeated along the batch, added to `x`. -/
def sumOf (x : FVec F S64x1025x1024 .f32) (p : FVec F S1025x1024 .f32) : FVec F S64x1025x1024 .f32 :=
  addf x (broadcastInDim S64x1025x1024 ![0, 1, 2] bcast_batch (broadcastInDim S1x1025x1024 ![1, 2] bcast_row p))

/-- At an index: the entry of `x` plus the table's entry in the same row and lane. -/
theorem sumOf_apply (x : FVec F S64x1025x1024 .f32) (p : FVec F S1025x1024 .f32) (b : Fin 64) (s : Fin 1025) (l : Fin 1024) :
    sumOf x p (ix3 b s l) = FloatOps.addf (x (ix3 b s l)) (p (ix2 s l)) := by
  unfold sumOf addf
  refine congrArg (FloatOps.addf _) ?_
  refine (broadcastInDim_apply _ bcast_batch _ (ix3 b s l) (ix3 (0 : Fin 1) s l) ?_).trans ?_
  · intro a; match a with
    | ⟨0, _⟩ => rfl
    | ⟨1, _⟩ => rfl
    | ⟨2, _⟩ => rfl
  · refine broadcastInDim_apply _ bcast_row p (ix3 (0 : Fin 1) s l) (ix2 s l) ?_
    intro a; match a with
    | ⟨0, _⟩ => rfl
    | ⟨1, _⟩ => rfl

end Cert.KernelIdeal.Val

end
-- ==== Proof.KernelIdealPos.lean ====
/-
  The position table the kernel program's host operations assemble before the pallas_call, as one function of the
  two small arguments, and that the region finds exactly that table in the buffer the second window stages.
-/
import proofs.«149279_j41120016892507_2_alg».proof.Proof.Gen.KernelIdeal.Frame
import Idealize.ShloMosaic.Lib.StableHlo.Run
import Idealize.ShloMosaic.Lib.Tactic

set_option maxRecDepth 16384

noncomputable section

namespace Cert.KernelIdeal.Pos

open Cert.KernelIdeal Cert.KernelIdeal.Gen
open Idealize.ShloMosaic Idealize.ShloMosaic.TcCoe Idealize.ShloMosaic.Tactic Idealize.SL.Sem Idealize.ShloMosaic.StableHlo

variable {F : FTy → Type} [FloatOps F]

/-- The position table as a function of the two small arguments, operation by operation: the 528 learned rows are
    split into four quarter-rows of 256 lanes; a first gather takes, for each of the 1024 grid cells, the learned
    row its cell table names; a second gather permutes each cell's four quarters by its rotation table; the class
    row is the class quarter tiled four times; the class row is stacked on top of the 1024 cell rows. -/
def posOf (a1 : FVec F S1x528x1024 .f32) (a2 : FVec F S1x1x256 .f32) : FVec F S1025x1024 .f32 :=
  let c : IVec S1024 32 := fun i => lit0 (S1024.rowMajor i)
  let c_1 : IVec S1024x1 32 := fun i => lit1 (S1024x1.rowMajor i)
  let c_3 : IVec S1024x4 32 := fun i => lit2 (S1024x4.rowMajor i)
  let v1 : FVec F S528x4x256 .f32 :=
    shapeCast S528x4x256 (shapeCast S528x1024 a1 shapeCasts_S1x528x1024_S528x1024) shapeCasts_S528x1024_S528x4x256
  let v4 : IVec S1024 32 :=
    select (constantI S1024 1 0#1) (addi c (broadcastInDim S1024 ![] bcast_S_S1024 (constantI S_ 32 528#32))) c
  let v5 : IVec S1024x1 32 := broadcastInDim S1024x1 ![0] bcast_S1024_S1024x1_0 v4
  let v6 : FVec F S1024x4x256 .f32 := Host.gather gather_S528x4x256_S1024x1_S1024x4x256_12_0_n_n_0_1_14256 v1 v5
  let v9 : IVec S1024x1 32 :=
    select (constantI S1024x1 1 0#1) (addi c_1 (broadcastInDim S1024x1 ![] bcast_S_S1024x1 (constantI S_ 32 1024#32))) c_1
  let v12 : IVec S1024x4 32 :=
    select (constantI S1024x4 1 0#1) (addi c_3 (broadcastInDim S1024x4 ![] bcast_S_S1024x4 (constantI S_ 32 4#32))) c_3
  let v13 : IVec S1024x4 32 := broadcastInDim S1024x4 ![0, 1] bcast_S1024x1_S1024x4_0_1 v9
  let v14 : IVec S1024x4x1 32 := broadcastInDim S1024x4x1 ![0, 1] bcast_S1024x4_S1024x4x1_0_1 v13
  let v15 : IVec S1024x4x1 32 := broadcastInDim S1024x4x1 ![0, 1] bcast_S1024x4_S1024x4x1_0_1 v12
  let v16 : IVec S1024x4x2 32 :=
    concatenate S1024x4x2 2 [⟨S1024x4x1, v14⟩, ⟨S1024x4x1, v15⟩] concatenates_S1024x4x1_S1024x4x1_S1024x4x2_d2
  let v17 : FVec F S1024x4x256 .f32 := Host.gather gather_S1024x4x256_S1024x4x2_S1024x4x256_2_01_n_n_01_2_11256 v6 v16
  let v18 : FVec F S1024x1024 .f32 := shapeCast S1024x1024 v17 shapeCasts_S1024x4x256_S1024x1024
  let v20 : FVec F S1x1x1x256 .f32 :=
    shapeCast S1x1x1x256 (shapeCast S1x256 a2 shapeCasts_S1x1x256_S1x256) shapeCasts_S1x256_S1x1x1x256
  let v21 : FVec F S1x1x4x256 .f32 := broadcastInDim S1x1x4x256 ![0, 1, 2, 3] bcast_S1x1x1x256_S1x1x4x256_0_1_2_3 v20
  let v22 : FVec F S1x1024 .f32 := shapeCast S1x1024 v21 shapeCasts_S1x1x4x256_S1x1024
  concatenate S1025x1024 0 [⟨S1x1024, v22⟩, ⟨S1024x1024, v18⟩] concatenates_S1x1024_S1024x1024_S1025x1024_d0

/-- Whatever the buffers hold when the host operations start, after them the table's buffer holds `posOf` of what
    the two small arguments' buffers held: each operation writes one buffer of its own and reads only buffers
    written before it or the arguments. -/
theorem after_v23 (W : Valuation τ sig (Elt F)) :
    StableHlo.after hostOps0 W (Proc.devRef .tc main_v23)
      = posOf (W (Proc.devRef .tc main_arg1)) (W (Proc.devRef .tc main_arg2)) := by
  sl_kernel_rfl

/-- The region finds the table in the second window's array. -/
theorem V_v23 (m : (ℓ : Loc nD τ sig) → Buf (Elt F) ℓ) (c : Dev nD) :
    V m c main_v23 = posOf (m ((c : Thread nD τ).loc main_arg1)) (m ((c : Thread nD τ).loc main_arg2)) :=
  after_v23 _

end Cert.KernelIdeal.Pos

end
-- ==== Proof.KernelIdealValue.lean ====
/-
  What the idealized kernel program leaves in its result array: at every index (b, s, l) the entry of `x` plus
  the entry (s, l) of the position table. Each grid point writes back the part of its (16, 128, 1024) block that
  lies inside the array; at an entry of that part the body's sum reads the `x` block and the table block at
  entries that lie inside THEIR arrays (the three windows are cut alike on the sequence axis), where the staging
  buffers hold the arrays' own entries. The 36 parts cover the array: entry (b, s, l) is in the part of the point
  with sequence block s / 128 and batch block b / 16.
-/
import proofs.«149279_j41120016892507_2_alg».proof.Proof.KernelIdealBody
import proofs.«149279_j41120016892507_2_alg».proof.Proof.KernelIdealSum
import proofs.«149279_j41120016892507_2_alg».proof.Proof.KernelIdealPos
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Body
open Idealize.ShloMosaic Idealize.ShloMosaic.TcCoe Idealize.SL.Sem
open Idealize.ShloMosaic.Pipeline (Dat Cfg Window)
open Idealize.ShloMosaic.ValueIdx

variable {F : FTy → Type} [FloatOps F]

/-! ## The grid, decided once -/

/-- The three index maps over the 36 points: `x`'s window moves with the result's; the table's block index is the
    result's sequence block; the lane axis is never split; the batch block is the point modulo 4 and the sequence
    block the point divided by 4. -/
theorem grid_facts : ∀ t : Fin cfg0.N,
    win0_0.index t (0 : Fin 3) = win0_2.index t (0 : Fin 3) ∧ win0_0.index t (1 : Fin 3) = win0_2.index t (1 : Fin 3)
    ∧ win0_0.index t (2 : Fin 3) = win0_2.index t (2 : Fin 3)
    ∧ win0_1.index t (0 : Fin 2) = win0_2.index t (1 : Fin 3) ∧ win0_1.index t (1 : Fin 2) = 0
    ∧ win0_2.index t (2 : Fin 3) = 0
    ∧ win0_2.index t (0 : Fin 3) = t.val % 4 ∧ win0_2.index t (1 : Fin 3) = t.val / 4 :=
  (by decide +kernel : ∀ t : Fin grid0.N, _)

/-- The cuts over the 36 points: only the sequence axis is cut, to one row, and only in the ninth sequence block;
    the three windows are cut alike. -/
theorem cut_facts : ∀ t : Fin cfg0.N,
    win0_2.xsize (grid0.coords t) (0 : Fin 3) = 16
    ∧ win0_2.xsize (grid0.coords t) (1 : Fin 3) = (if t.val / 4 = 8 then 1 else 128)
    ∧ win0_2.xsize (grid0.coords t) (2 : Fin 3) = 1024
    ∧ win0_0.xsize (grid0.coords t) (0 : Fin 3) = 16
    ∧ win0_0.xsize (grid0.coords t) (1 : Fin 3) = (if t.val / 4 = 8 then 1 else 128)
    ∧ win0_0.xsize (grid0.coords t) (2 : Fin 3) = 1024
    ∧ win0_1.xsize (grid0.coords t) (0 : Fin 2) = (if t.val / 4 = 8 then 1 else 128)
    ∧ win0_1.xsize (grid0.coords t) (1 : Fin 2) = 1024 :=
  (by decide +kernel : ∀ t : Fin grid0.N, _)

/-- A staging buffer filled out past the cut holds, at an entry inside the cut, the block's entry. -/
theorem fill_at {G : Pipeline.Grid} (w : Window sig G) {α : Type} (i : G.Coords) (d : w.block.Idx → α)
    (g : (w.xblock i).Idx → α) (y : w.block.Idx) (h : ∀ a, (y a).val < w.xsize i a) :
    w.fill i d g y = g (fun a => ⟨(y a).val, h a⟩) := by
  unfold Window.fill
  rw [dif_pos ((w.moved_iff i y).mpr h)]

/-! ## What a point writes back -/

variable (m : (ℓ : Loc nD τ sig) → Buf (Elt F) ℓ)

theorem point_lt (t : Fin cfg0.N) : t.val < 36 := lt_of_lt_of_eq t.isLt N_0

/-- An entry of `x`'s filled-out block inside the cut is the array's entry at the block's offset plus the entry's
    coordinates. -/
theorem xin_apply (c : Dev nD) (t : Fin cfg0.N) (b : Fin 16) (r : Fin 128) (l : Fin 1024)
    (hr : r.val < win0_0.xsize (grid0.coords t) (1 : Fin 3))
    (hb' : win0_2.index t (0 : Fin 3) * 16 + b.val < 64) (hs' : win0_2.index t (1 : Fin 3) * 128 + r.val < 1025) :
    xin m c t (ix3 b r l)
      = V m c main_arg0 (ix3 ⟨win0_2.index t (0 : Fin 3) * 16 + b.val, hb'⟩ ⟨win0_2.index t (1 : Fin 3) * 128 + r.val, hs'⟩ l) := by
  obtain ⟨i0, i1, i2, p0, p1, o2, oB, oJ⟩ := grid_facts t
  obtain ⟨x0, x1, x2, y0, y1, y2, z0, z1⟩ := cut_facts t
  have h : ∀ a : Fin 3, ((ix3 b r l : S16x128x1024.Idx) a).val < win0_0.xsize (grid0.coords t) a := fun a =>
    match a with
    | ⟨0, _⟩ => (show b.val < win0_0.xsize (grid0.coords t) (0 : Fin 3) from lt_of_lt_of_eq b.isLt y0.symm)
    | ⟨1, _⟩ => hr
    | ⟨2, _⟩ => (show l.val < win0_0.xsize (grid0.coords t) (2 : Fin 3) from lt_of_lt_of_eq l.isLt y2.symm)
  unfold xin
  rw [fill_at win0_0 (grid0.coords t) (fun _ => Scalar.ofBits .f32 0#32) (iblk m c 0 t) (ix3 b r l) h]
  show V m c main_arg0 (((cfg0.win 0).blk t).view.emb (fun a => ⟨((ix3 b r l : S16x128x1024.Idx) a).val, h a⟩)) = _
  refine congrArg (V m c main_arg0) (funext fun a => Fin.ext ?_)
  match a with
  | ⟨0, _⟩ => show win0_0.index t (0 : Fin 3) * 16 + 1 * b.val = win0_2.index t (0 : Fin 3) * 16 + b.val; rw [i0]; omega
  | ⟨1, _⟩ => show win0_0.index t (1 : Fin 3) * 128 + 1 * r.val = win0_2.index t (1 : Fin 3) * 128 + r.val; rw [i1]; omega
  | ⟨2, _⟩ => show win0_0.index t (2 : Fin 3) * 1024 + 1 * l.val = l.val; rw [i2, o2]; omega

/-- An entry of the table's filled-out block inside the cut is the table's entry in the sequence block's row. -/
theorem pin_apply (c : Dev nD) (t : Fin cfg0.N) (r : Fin 128) (l : Fin 1024)
    (hr : r.val < win0_1.xsize (grid0.coords t) (0 : Fin 2))
    (hs' : win0_2.index t (1 : Fin 3) * 128 + r.val < 1025) :
    pin m c t (ix2 r l) = V m c main_v23 (ix2 ⟨win0_2.index t (1 : Fin 3) * 128 + r.val, hs'⟩ l) := by
  obtain ⟨i0, i1, i2, p0, p1, o2, oB, oJ⟩ := grid_facts t
  obtain ⟨x0, x1, x2, y0, y1, y2, z0, z1⟩ := cut_facts t
  have h : ∀ a : Fin 2, ((ix2 r l : S128x1024.Idx) a).val < win0_1.xsize (grid0.coords t) a := fun a =>
    match a with
    | ⟨0, _⟩ => hr
    | ⟨1, _⟩ => (show l.val < win0_1.xsize (grid0.coords t) (1 : Fin 2) from lt_of_lt_of_eq l.isLt z1.symm)
  unfold pin
  rw [fill_at win0_1 (grid0.coords t) (fun _ => Scalar.ofBits .f32 0#32) (iblk m c 1 t) (ix2 r l) h]
  show V m c main_v23 (((cfg0.win 1).blk t).view.emb (fun a => ⟨((ix2 r l : S128x1024.Idx) a).val, h a⟩)) = _
  refine congrArg (V m c main_v23) (funext fun a => Fin.ext ?_)
  match a with
  | ⟨0, _⟩ => show win0_1.index t (0 : Fin 2) * 128 + 1 * r.val = win0_2.index t (1 : Fin 3) * 128 + r.val; rw [p0]; omega
  | ⟨1, _⟩ => show win0_1.index t (1 : Fin 2) * 1024 + 1 * l.val = l.val; rw [p1]; omega

/-- WHAT POINT `t` WRITES BACK is its block of `x + table[None]`, of the arrays as the region finds them: an entry
    of the part inside the array is the body's sum at the same entry of the staging buffers, where those hold the
    arrays' entries at the block's offset. -/
theorem flushed_eq (c : Dev nD) (t : Fin cfg0.N) :
    (dats m 0 c).flushed 2 t
      = ((cfg0.win 2).blk t).view.read (Elt F) (sumOf (V m c main_arg0) (V m c main_v23)) := by
  show (cfg0.win 2).cut (grid0.coords t) ((dats m 0 c).after 2 t) = _
  rw [after0_2]
  obtain ⟨i0, i1, i2, p0, p1, o2, oB, oJ⟩ := grid_facts t
  obtain ⟨x0, x1, x2, y0, y1, y2, z0, z1⟩ := cut_facts t
  have ht := point_lt t
  funext j
  have hj0 : (j 0).val < 16 := lt_of_lt_of_eq (j 0).isLt x0
  have hj1 : (j 1).val < (if t.val / 4 = 8 then 1 else 128) := lt_of_lt_of_eq (j 1).isLt x1
  have hj2 : (j 2).val < 1024 := lt_of_lt_of_eq (j 2).isLt x2
  have hr : (j 1).val < 128 := by split at hj1 <;> omega
  have hb' : win0_2.index t (0 : Fin 3) * 16 + (j 0).val < 64 := by rw [oB]; omega
  have hs' : win0_2.index t (1 : Fin 3) * 128 + (j 1).val < 1025 := by rw [oJ]; split at hj1 <;> omega
  have ey : win0_2.xinj (grid0.coords t) j
      = ix3 (⟨(j 0).val, hj0⟩ : Fin 16) (⟨(j 1).val, hr⟩ : Fin 128) (⟨(j 2).val, hj2⟩ : Fin 1024) :=
    funext fun a => match a with | ⟨0, _⟩ => rfl | ⟨1, _⟩ => rfl | ⟨2, _⟩ => rfl
  have ei : ((cfg0.win 2).blk t).view.emb j
      = ix3 (⟨win0_2.index t (0 : Fin 3) * 16 + (j 0).val, hb'⟩ : Fin 64)
          (⟨win0_2.index t (1 : Fin 3) * 128 + (j 1).val, hs'⟩ : Fin 1025) (⟨(j 2).val, hj2⟩ : Fin 1024) := by
    funext a; apply Fin.ext
    match a with
    | ⟨0, _⟩ => show win0_2.index t (0 : Fin 3) * 16 + 1 * (j 0).val = win0_2.index t (0 : Fin 3) * 16 + (j 0).val; omega
    | ⟨1, _⟩ => show win0_2.index t (1 : Fin 3) * 128 + 1 * (j 1).val = win0_2.index t (1 : Fin 3) * 128 + (j 1).val; omega
    | ⟨2, _⟩ => show win0_2.index t (2 : Fin 3) * 1024 + 1 * (j 2).val = (j 2).val; rw [o2]; omega
  show k0_pay1 (xin m c t) (pin m c t) (win0_2.xinj (grid0.coords t) j)
    = sumOf (V m c main_arg0) (V m c main_v23) (((cfg0.win 2).blk t).view.emb j)
  rw [ey, ei, pay_apply, sumOf_apply,
    xin_apply m c t _ _ _ (lt_of_lt_of_eq hj1 y1.symm) hb' hs',
    pin_apply m c t _ _ (lt_of_lt_of_eq hj1 z0.symm) hs']

/-! ## The parts cover the array -/

/-- An index of the array is in point `t`'s part iff each coordinate is in the part's range on its axis. -/
theorem mem_blk (t : Fin cfg0.N) (i : S64x1025x1024.Idx) :
    i ∈ ((cfg0.win 2).blk t).view.set ↔ ∀ a : Fin 3, win0_2.index t a * S16x128x1024.size a ≤ (i a).val
      ∧ (i a).val < win0_2.index t a * S16x128x1024.size a + win0_2.xsize (grid0.coords t) a := by
  show i ∈ ((View.whole main_v24).slice (win0_2.rect t)).set ↔ _
  rw [View.set_slice_whole, Rect.mem_set_unit]
  exact Iff.rfl

/-- Entry (b, s, l) is in the part of the point with sequence block s / 128 and batch block b / 16: for s = 1024 that
    is the ninth sequence block, whose part is its first row. -/
theorem cover (i : S64x1025x1024.Idx) :
    ∃ t : Fin cfg0.N, (cfg0.win 2).flush t = true ∧ i ∈ ((cfg0.win 2).blk t).view.set := by
  have h0 : (i 0).val < 64 := (i 0).isLt
  have h1 : (i 1).val < 1025 := (i 1).isLt
  have h2 : (i 2).val < 1024 := (i 2).isLt
  have hN : (i 1).val / 128 * 4 + (i 0).val / 16 < cfg0.N := by rw [show cfg0.N = 36 from N_0]; omega
  refine ⟨⟨(i 1).val / 128 * 4 + (i 0).val / 16, hN⟩, flush0_2 _, ?_⟩
  obtain ⟨-, -, -, -, -, o2, oB, oJ⟩ := grid_facts ⟨(i 1).val / 128 * 4 + (i 0).val / 16, hN⟩
  obtain ⟨x0, x1, x2, -⟩ := cut_facts ⟨(i 1).val / 128 * 4 + (i 0).val / 16, hN⟩
  rw [mem_blk]
  intro a
  match a with
  | ⟨0, _⟩ =>
    show win0_2.index ⟨_, hN⟩ (0 : Fin 3) * 16 ≤ (i 0).val
      ∧ (i 0).val < win0_2.index ⟨_, hN⟩ (0 : Fin 3) * 16 + win0_2.xsize (grid0.coords ⟨_, hN⟩) (0 : Fin 3)
    rw [oB, x0]
    show ((i 1).val / 128 * 4 + (i 0).val / 16) % 4 * 16 ≤ (i 0).val
      ∧ (i 0).val < ((i 1).val / 128 * 4 + (i 0).val / 16) % 4 * 16 + 16
    omega
  | ⟨1, _⟩ =>
    show win0_2.index ⟨_, hN⟩ (1 : Fin 3) * 128 ≤ (i 1).val
      ∧ (i 1).val < win0_2.index ⟨_, hN⟩ (1 : Fin 3) * 128 + win0_2.xsize (grid0.coords ⟨_, hN⟩) (1 : Fin 3)
    rw [oJ, x1]
    show ((i 1).val / 128 * 4 + (i 0).val / 16) / 4 * 128 ≤ (i 1).val
      ∧ (i 1).val < ((i 1).val / 128 * 4 + (i 0).val / 16) / 4 * 128 + (if ((i 1).val / 128 * 4 + (i 0).val / 16) / 4 = 8 then 1 else 128)
    split <;> omega
  | ⟨2, _⟩ =>
    show win0_2.index ⟨_, hN⟩ (2 : Fin 3) * 1024 ≤ (i 2).val
      ∧ (i 2).val < win0_2.index ⟨_, hN⟩ (2 : Fin 3) * 1024 + win0_2.xsize (grid0.coords ⟨_, hN⟩) (2 : Fin 3)
    rw [o2, x2]; omega

/-- THE RESULT ARRAY after the run: `x + table[None]` of the arrays as the region finds them. -/
theorem final (c : Dev nD) : (dats m 0 c).arrAt 2 cfg0.N = sumOf (V m c main_arg0) (V m c main_v23) :=
  (dats m 0 c).arrAt_eq_of_cover 2 _ (fun t _ => flushed_eq m c t) (fun i => cover i)

/-! ## The run, read -/

/-- Every weakly fair execution of the idealized kernel program terminates with its result array at
    `x + table[None]`, the table the function `Pos.posOf` of the two small arguments, and the three arguments as
    launched. -/
theorem run (ρ : Dev nD → PrngReg) :
    θ_run defs (onTc (τ := τ) (main (F := F))) ⟨m, fun _ => 0, ρ⟩ fun r => ∀ c : Dev nD,
      r.2.mem ((c.tc : Thread nD τ).loc main_v24)
        = sumOf (m ((c.tc : Thread nD τ).loc main_arg0))
            (Pos.posOf (m ((c.tc : Thread nD τ).loc main_arg1)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
      ⟨((h c).1 2).trans ((final m c).trans (by rw [V_main_arg0, Pos.V_v23])),
        ((h c).1 0).trans (((dats m 0 c).arrAt_in 0 rfl _).trans ((A_eq m c 0).trans (V_main_arg0 m c))),
        ((h c).2 main_arg1 (Pipeline.mem_restRefs_of main_arg1 (by decide) (by decide))).trans (V_main_arg1 m c),
        ((h c).2 main_arg2 (Pipeline.mem_restRefs_of main_arg2 (by decide) (by decide))).trans (V_main_arg2 m c)⟩)
    (run_main m ρ)

end Cert.KernelIdeal.Val

end
-- ==== Proof.RefRun.lean ====
import proofs.«149279_j41120016892507_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The reference's host program as a list: its 36 operations in program order (six constant
    tables and masks, the reshapes of the two small arguments, the index arithmetic, the two
    gathers, the class row tiled four times, the concatenation, the two broadcasts, the sum). -/
abbrev ops : List (HloOp τ sig (Elt F)) :=
  [ StableHlo.nullary main_c (fun i => lit0 (S1024.rowMajor i)),
    StableHlo.nullary main_c_0 (constantI S1024 1 0#1),
    StableHlo.nullary main_c_1 (fun i => lit1 (S1024x1.rowMajor i)),
    StableHlo.nullary main_c_2 (constantI S1024x1 1 0#1),
    StableHlo.nullary main_c_3 (fun i => lit2 (S1024x4.rowMajor i)),
    StableHlo.nullary main_c_4 (constantI S1024x4 1 0#1),
    StableHlo.reshape main_arg1 main_v0 rfl shapeCasts_S1x528x1024_S528x1024,
    StableHlo.reshape main_v0 main_v1 rfl shapeCasts_S528x1024_S528x4x256,
    StableHlo.nullary main_c_5 (constantI S_ 32 528#32),
    StableHlo.unary main_c_5 main_v2 (broadcastInDim S1024 ![] bcast_S_S1024 : (⟨S_, .i32⟩ : BufTy).Contents (Elt F) → (⟨S1024, .i32⟩ : BufTy).Contents (Elt F)),
    StableHlo.binary main_c main_v2 main_v3 (addi : (⟨S1024, .i32⟩ : BufTy).Contents (Elt F) → (⟨S1024, .i32⟩ : BufTy).Contents (Elt F) → (⟨S1024, .i32⟩ : BufTy).Contents (Elt F)),
    StableHlo.ternary main_c_0 main_v3 main_c main_v4 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    StableHlo.unary main_v4 main_v5 (broadcastInDim S1024x1 ![0] bcast_S1024_S1024x1_0 : (⟨S1024, .i32⟩ : BufTy).Contents (Elt F) → (⟨S1024x1, .i32⟩ : BufTy).Contents (Elt F)),
    StableHlo.binary main_v1 main_v5 main_v6 ((fun x i => Host.gather gather_S528x4x256_S1024x1_S1024x4x256_12_0_n_n_0_1_14256 x i) : (⟨S528x4x256, .f32⟩ : BufTy).Contents (Elt F) → (⟨S1024x1, .i32⟩ : BufTy).Contents (Elt F) → (⟨S1024x4x256, .f32⟩ : BufTy).Contents (Elt F)),
    StableHlo.nullary main_c_6 (constantI S_ 32 1024#32),
    StableHlo.unary main_c_6 main_v7 (broadcastInDim S1024x1 ![] bcast_S_S1024x1 : (⟨S_, .i32⟩ : BufTy).Contents (Elt F) → (⟨S1024x1, .i32⟩ : BufTy).Contents (Elt F)),
    StableHlo.binary main_c_1 main_v7 main_v8 (addi : (⟨S1024x1, .i32⟩ : BufTy).Contents (Elt F) → (⟨S1024x1, .i32⟩ : BufTy).Contents (Elt F) → (⟨S1024x1, .i32⟩ : BufTy).Contents (Elt F)),
    StableHlo.ternary main_c_2 main_v8 main_c_1 main_v9 (select : (⟨S1024x1, .i1⟩ : BufTy).Contents (Elt F) → (⟨S1024x1, .i32⟩ : BufTy).Contents (Elt F) → (⟨S1024x1, .i32⟩ : BufTy).Contents (Elt F) → (⟨S1024x1, .i32⟩ : BufTy).Contents (Elt F)),
    StableHlo.nullary main_c_7 (constantI S_ 32 4#32),
    StableHlo.unary main_c_7 main_v10 (broadcastInDim S1024x4 ![] bcast_S_S1024x4 : (⟨S_, .i32⟩ : BufTy).Contents (Elt F) → (⟨S1024x4, .i32⟩ : BufTy).Contents (Elt F)),
    StableHlo.binary main_c_3 main_v10 main_v11 (addi : (⟨S1024x4, .i32⟩ : BufTy).Contents (Elt F) → (⟨S1024x4, .i32⟩ : BufTy).Contents (Elt F) → (⟨S1024x4, .i32⟩ : BufTy).Contents (Elt F)),
    StableHlo.ternary main_c_4 main_v11 main_c_3 main_v12 (select : (⟨S1024x4, .i1⟩ : BufTy).Contents (Elt F) → (⟨S1024x4, .i32⟩ : BufTy).Contents (Elt F) → (⟨S1024x4, .i32⟩ : BufTy).Contents (Elt F) → (⟨S1024x4, .i32⟩ : BufTy).Contents (Elt F)),
    StableHlo.unary main_v9 main_v13 (broadcastInDim S1024x4 ![0, 1] bcast_S1024x1_S1024x4_0_1 : (⟨S1024x1, .i32⟩ : BufTy).Contents (Elt F) → (⟨S1024x4, .i32⟩ : BufTy).Contents (Elt F)),
    StableHlo.unary main_v13 main_v14 (broadcastInDim S1024x4x1 ![0, 1] bcast_S1024x4_S1024x4x1_0_1 : (⟨S1024x4, .i32⟩ : BufTy).Contents (Elt F) → (⟨S1024x4x1, .i32⟩ : BufTy).Contents (Elt F)),
    StableHlo.unary main_v12 main_v15 (broadcastInDim S1024x4x1 ![0, 1] bcast_S1024x4_S1024x4x1_0_1 : (⟨S1024x4, .i32⟩ : BufTy).Contents (Elt F) → (⟨S1024x4x1, .i32⟩ : BufTy).Contents (Elt F)),
    StableHlo.binary main_v14 main_v15 main_v16 ((fun a b => concatenate S1024x4x2 2 [⟨S1024x4x1, a⟩, ⟨S1024x4x1, b⟩] concatenates_S1024x4x1_S1024x4x1_S1024x4x2_d2) : (⟨S1024x4x1, .i32⟩ : BufTy).Contents (Elt F) → (⟨S1024x4x1, .i32⟩ : BufTy).Contents (Elt F) → (⟨S1024x4x2, .i32⟩ : BufTy).Contents (Elt F)),
    StableHlo.binary main_v6 main_v16 main_v17 ((fun x i => Host.gather gather_S1024x4x256_S1024x4x2_S1024x4x256_2_01_n_n_01_2_11256 x i) : (⟨S1024x4x256, .f32⟩ : BufTy).Contents (Elt F) → (⟨S1024x4x2, .i32⟩ : BufTy).Contents (Elt F) → (⟨S1024x4x256, .f32⟩ : BufTy).Contents (Elt F)),
    StableHlo.reshape main_v17 main_v18 rfl shapeCasts_S1024x4x256_S1024x1024,
    StableHlo.reshape main_arg2 main_v19 rfl shapeCasts_S1x1x256_S1x256,
    StableHlo.reshape main_v19 main_v20 rfl shapeCasts_S1x256_S1x1x1x256,
    StableHlo.unary main_v20 main_v21 (broadcastInDim S1x1x4x256 ![0, 1, 2, 3] bcast_S1x1x1x256_S1x1x4x256_0_1_2_3 : (⟨S1x1x1x256, .f32⟩ : BufTy).Contents (Elt F) → (⟨S1x1x4x256, .f32⟩ : BufTy).Contents (Elt F)),
    StableHlo.reshape main_v21 main_v22 rfl shapeCasts_S1x1x4x256_S1x1024,
    StableHlo.binary main_v22 main_v18 main_v23 ((fun a b => concatenate S1025x1024 0 [⟨S1x1024, a⟩, ⟨S1024x1024, b⟩] concatenates_S1x1024_S1024x1024_S1025x1024_d0) : (⟨S1x1024, .f32⟩ : BufTy).Contents (Elt F) → (⟨S1024x1024, .f32⟩ : BufTy).Contents (Elt F) → (⟨S1025x1024, .f32⟩ : BufTy).Contents (Elt F)),
    StableHlo.unary main_v23 main_v24 (broadcastInDim S1x1025x1024 ![1, 2] bcast_S1025x1024_S1x1025x1024_1_2 : (⟨S1025x1024, .f32⟩ : BufTy).Contents (Elt F) → (⟨S1x1025x1024, .f32⟩ : BufTy).Contents (Elt F)),
    StableHlo.unary main_v24 main_v25 (broadcastInDim S64x1025x1024 ![0, 1, 2] bcast_S1x1025x1024_S64x1025x1024_0_1_2 : (⟨S1x1025x1024, .f32⟩ : BufTy).Contents (Elt F) → (⟨S64x1025x1024, .f32⟩ : BufTy).Contents (Elt F)),
    StableHlo.binary main_arg0 main_v25 main_v26 (addf : (⟨S64x1025x1024, .f32⟩ : BufTy).Contents (Elt F) → (⟨S64x1025x1024, .f32⟩ : BufTy).Contents (Elt F) → (⟨S64x1025x1024, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., nullary_bufs_sub .., nullary_bufs_sub .., nullary_bufs_sub .., nullary_bufs_sub .., nullary_bufs_sub .., reshape_bufs_sub .., reshape_bufs_sub .., nullary_bufs_sub .., unary_bufs_sub .., binary_bufs_sub .., ternary_bufs_sub .., unary_bufs_sub .., binary_bufs_sub .., nullary_bufs_sub .., unary_bufs_sub .., binary_bufs_sub .., ternary_bufs_sub .., nullary_bufs_sub .., unary_bufs_sub .., binary_bufs_sub .., ternary_bufs_sub .., unary_bufs_sub .., unary_bufs_sub .., unary_bufs_sub .., binary_bufs_sub .., binary_bufs_sub .., reshape_bufs_sub .., reshape_bufs_sub .., reshape_bufs_sub .., unary_bufs_sub .., reshape_bufs_sub .., binary_bufs_sub .., unary_bufs_sub .., unary_bufs_sub .., binary_bufs_sub ..⟩

/-- The position table as a function of the two small arguments, operation by operation: the 528 learned rows are
    split into four quarter-rows of 256 lanes; a first gather takes, for each of the 1024 grid cells, the learned
    row its cell table names; a second gather permutes each cell's four quarters by its rotation table; the class
    row is the class quarter tiled four times; the class row is stacked on top of the 1024 cell rows. -/
def posOf (a1 : FVec F S1x528x1024 .f32) (a2 : FVec F S1x1x256 .f32) : FVec F S1025x1024 .f32 :=
  let c : IVec S1024 32 := fun i => lit0 (S1024.rowMajor i)
  let c_1 : IVec S1024x1 32 := fun i => lit1 (S1024x1.rowMajor i)
  let c_3 : IVec S1024x4 32 := fun i => lit2 (S1024x4.rowMajor i)
  let v1 : FVec F S528x4x256 .f32 :=
    shapeCast S528x4x256 (shapeCast S528x1024 a1 shapeCasts_S1x528x1024_S528x1024) shapeCasts_S528x1024_S528x4x256
  let v4 : IVec S1024 32 :=
    select (constantI S1024 1 0#1) (addi c (broadcastInDim S1024 ![] bcast_S_S1024 (constantI S_ 32 528#32))) c
  let v5 : IVec S1024x1 32 := broadcastInDim S1024x1 ![0] bcast_S1024_S1024x1_0 v4
  let v6 : FVec F S1024x4x256 .f32 := Host.gather gather_S528x4x256_S1024x1_S1024x4x256_12_0_n_n_0_1_14256 v1 v5
  let v9 : IVec S1024x1 32 :=
    select (constantI S1024x1 1 0#1) (addi c_1 (broadcastInDim S1024x1 ![] bcast_S_S1024x1 (constantI S_ 32 1024#32))) c_1
  let v12 : IVec S1024x4 32 :=
    select (constantI S1024x4 1 0#1) (addi c_3 (broadcastInDim S1024x4 ![] bcast_S_S1024x4 (constantI S_ 32 4#32))) c_3
  let v13 : IVec S1024x4 32 := broadcastInDim S1024x4 ![0, 1] bcast_S1024x1_S1024x4_0_1 v9
  let v14 : IVec S1024x4x1 32 := broadcastInDim S1024x4x1 ![0, 1] bcast_S1024x4_S1024x4x1_0_1 v13
  let v15 : IVec S1024x4x1 32 := broadcastInDim S1024x4x1 ![0, 1] bcast_S1024x4_S1024x4x1_0_1 v12
  let v16 : IVec S1024x4x2 32 :=
    concatenate S1024x4x2 2 [⟨S1024x4x1, v14⟩, ⟨S1024x4x1, v15⟩] concatenates_S1024x4x1_S1024x4x1_S1024x4x2_d2
  let v17 : FVec F S1024x4x256 .f32 := Host.gather gather_S1024x4x256_S1024x4x2_S1024x4x256_2_01_n_n_01_2_11256 v6 v16
  let v18 : FVec F S1024x1024 .f32 := shapeCast S1024x1024 v17 shapeCasts_S1024x4x256_S1024x1024
  let v20 : FVec F S1x1x1x256 .f32 :=
    shapeCast S1x1x1x256 (shapeCast S1x256 a2 shapeCasts_S1x1x256_S1x256) shapeCasts_S1x256_S1x1x1x256
  let v21 : FVec F S1x1x4x256 .f32 := broadcastInDim S1x1x4x256 ![0, 1, 2, 3] bcast_S1x1x1x256_S1x1x4x256_0_1_2_3 v20
  let v22 : FVec F S1x1024 .f32 := shapeCast S1x1024 v21 shapeCasts_S1x1x4x256_S1x1024
  concatenate S1025x1024 0 [⟨S1x1024, v22⟩, ⟨S1024x1024, v18⟩] concatenates_S1x1024_S1024x1024_S1025x1024_d0

/-- Concatenation of two parts along one axis, with the two parts as plain arguments (the general
    operation takes a list of shaped parts, and its side condition speaks of that list). -/
def cat2 {α : Type} (t : Shape) (a : Fin t.rank) (s₁ s₂ : Shape) (h : Shape.Concatenates [s₁, s₂] t a)
    (x : s₁.Idx → α) (y : s₂.Idx → α) : t.Idx → α :=
  concatenate t a [⟨s₁, x⟩, ⟨s₂, y⟩] h

theorem concatenate_pair {α : Type} (t : Shape) (a : Fin t.rank) (s₁ s₂ : Shape) (h : Shape.Concatenates [s₁, s₂] t a)
    (x : s₁.Idx → α) (y : s₂.Idx → α) : concatenate t a [⟨s₁, x⟩, ⟨s₂, y⟩] h = cat2 t a s₁ s₂ h x y := rfl

/-- The fold of the 36 operations over any starting contents, read at the result: the first
    argument plus the position table broadcast over the batch. The fold is rewritten operation by
    operation (each buffer is written once, so reading a buffer after the list is reading its
    operation's function of its operands' buffers); what remains differs from `posOf` only in how
    a shape is spelt, and is closed by computation. -/
theorem after_v26 (W : Valuation τ sig (Elt F)) :
    after (ops (F := F)) W (Proc.devRef .tc main_v26)
      = addf (W (Proc.devRef .tc main_arg0))
        (broadcastInDim S64x1025x1024 ![0, 1, 2] bcast_S1x1025x1024_S64x1025x1024_0_1_2
          (broadcastInDim S1x1025x1024 ![1, 2] bcast_S1025x1024_S1x1025x1024_1_2
            (posOf (W (Proc.devRef .tc main_arg1)) (W (Proc.devRef .tc main_arg2))))) := by
  simp (disch := decide) only [after_cons, after_nil,
    nullary_result', unary_result', binary_result', ternary_result', reshape_result',
    nullary_result_ne', unary_result_ne', binary_result_ne', ternary_result_ne', reshape_result_ne',
    concatenate_pair]
  rfl

/-- No operation writes an argument's buffer. -/
theorem after_arg0 (W : Valuation τ sig (Elt F)) :
    after (ops (F := F)) W (Proc.devRef .tc main_arg0) = W (Proc.devRef .tc main_arg0) := by after_results_simp
theorem after_arg1 (W : Valuation τ sig (Elt F)) :
    after (ops (F := F)) W (Proc.devRef .tc main_arg1) = W (Proc.devRef .tc main_arg1) := by after_results_simp
theorem after_arg2 (W : Valuation τ sig (Elt F)) :
    after (ops (F := F)) W (Proc.devRef .tc main_arg2) = W (Proc.devRef .tc main_arg2) := by after_results_simp

/-- On every device, for any float values, from any memory with zero counters: every weakly fair
    execution of the reference terminates with the result buffer at the first argument plus the
    position table of the two small arguments (broadcast over the 64 batch entries), and the three
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v26)
        = addf (m ((c.tc : Thread nD τ).loc main_arg0))
            (broadcastInDim S64x1025x1024 ![0, 1, 2] bcast_S1x1025x1024_S64x1025x1024_0_1_2
              (broadcastInDim S1x1025x1024 ![1, 2] bcast_S1025x1024_S1x1025x1024_1_2
                (posOf (m ((c.tc : Thread nD τ).loc main_arg1)) (m ((c.tc : Thread nD τ).loc main_arg2)))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v26).trans (after_v26 _),
      (h c main_arg0).trans (after_arg0 _),
      (h c main_arg1).trans (after_arg1 _),
      (h c main_arg2).trans (after_arg2 _)⟩)
    (run_seq scopedRefs_eq scopedSems_eq defs main (fun _ => ops) main_eq (fun _ => ops_sub) m ρ)

/-- The run with the result dropped: the reference terminates and leaves its three arguments as
    they were. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run m ρ)

end Cert.ReferenceIdeal.RefRun

end
-- ==== Proof.Bridge.lean ====
import proofs.«149279_j41120016892507_2_alg».proof.Proof.RefRun
import proofs.«149279_j41120016892507_2_alg».proof.Proof.KernelIdealPos
import proofs.«149279_j41120016892507_2_alg».proof.Proof.KernelIdealSum
import proofs.«149279_j41120016892507_2_alg».proof.Defs
import proofs.«149279_j41120016892507_2_alg».proof.Proof.Gen.KernelIdeal
import proofs.«149279_j41120016892507_2_alg».proof.Proof.Gen.ReferenceIdeal
import proofs.«149279_j41120016892507_2_alg».proof.Proof.Gen.Pre_finite_inputs

noncomputable section

namespace Cert.Bridge

open Idealize.ShloMosaic Idealize.ShloMosaic.TcCoe Idealize.SL.Sem

variable {F : FTy → Type} [FloatOps F]

/-! The two programs print the same three index tables and the same two gather records, each under
    its own name: the names unfold to the same literals. -/

theorem lit0_eq : Cert.KernelIdeal.lit0 = Cert.ReferenceIdeal.lit0 := rfl
theorem lit1_eq : Cert.KernelIdeal.lit1 = Cert.ReferenceIdeal.lit1 := rfl
theorem lit2_eq : Cert.KernelIdeal.lit2 = Cert.ReferenceIdeal.lit2 := rfl
theorem gather_rows_eq :
    Cert.KernelIdeal.gather_S528x4x256_S1024x1_S1024x4x256_12_0_n_n_0_1_14256
      = Cert.ReferenceIdeal.gather_S528x4x256_S1024x1_S1024x4x256_12_0_n_n_0_1_14256 := rfl
theorem gather_quarters_eq :
    Cert.KernelIdeal.gather_S1024x4x256_S1024x4x2_S1024x4x256_2_01_n_n_01_2_11256
      = Cert.ReferenceIdeal.gather_S1024x4x256_S1024x4x2_S1024x4x256_2_01_n_n_01_2_11256 := rfl

/-- The position table of the reference is the position table of the kernel program: the two are the
    same composition of the same operations over the same shapes, tables and gather records, and the
    side conditions they cite are proofs. -/
theorem posOf_eq (a1 : FVec F Cert.KernelIdeal.S1x528x1024 .f32) (a2 : FVec F Cert.KernelIdeal.S1x1x256 .f32) :
    Cert.ReferenceIdeal.RefRun.posOf a1 a2 = Cert.KernelIdeal.Pos.posOf a1 a2 := by
  unfold Cert.ReferenceIdeal.RefRun.posOf Cert.KernelIdeal.Pos.posOf
  rfl

/-- The reference's result term is the kernel side's `x + table[None]`. -/
theorem result_eq (x : FVec F Cert.KernelIdeal.S64x1025x1024 .f32) (a1 : FVec F Cert.KernelIdeal.S1x528x1024 .f32) (a2 : FVec F Cert.KernelIdeal.S1x1x256 .f32) :
    addf x (broadcastInDim Cert.ReferenceIdeal.S64x1025x1024 ![0, 1, 2] Cert.ReferenceIdeal.Facts₀.bcast_S1x1025x1024_S64x1025x1024_0_1_2
        (broadcastInDim Cert.ReferenceIdeal.S1x1025x1024 ![1, 2] Cert.ReferenceIdeal.Facts₀.bcast_S1025x1024_S1x1025x1024_1_2
          (Cert.ReferenceIdeal.RefRun.posOf a1 a2)))
      = Cert.KernelIdeal.Val.sumOf x (Cert.KernelIdeal.Pos.posOf a1 a2) := by
  unfold Cert.KernelIdeal.Val.sumOf
  rw [posOf_eq]

/-- The algebraic claim from the kernel program's run: if the kernel program, from any memory, ends
    with its result at `x + table[None]` of its arguments and its arguments unchanged, then from
    memories agreeing on the arguments the reference ends at the same value — its run gives its
    result as the same sum over its own arguments, which are the kernel program's. -/
theorem algebraic_of
    (hK : ∀ (m : (ℓ : Loc Cert.KernelIdeal.nD Cert.KernelIdeal.τ Cert.KernelIdeal.sig) → Buf (Elt Ideal) ℓ) (ρ : Dev Cert.KernelIdeal.nD → PrngReg),
      θ_run (Cert.KernelIdeal.defs (F := Ideal)) (onTc (τ := Cert.KernelIdeal.τ) (Cert.KernelIdeal.main (F := Ideal))) ⟨m, fun _ => 0, ρ⟩ fun r => ∀ c : Dev Cert.KernelIdeal.nD,
        r.2.mem ((c.tc : Thread Cert.KernelIdeal.nD Cert.KernelIdeal.τ).loc Cert.KernelIdeal.main_v24)
          = Cert.KernelIdeal.Val.sumOf (F := Ideal) (m ((c.tc : Thread Cert.KernelIdeal.nD Cert.KernelIdeal.τ).loc Cert.KernelIdeal.main_arg0))
              (Cert.KernelIdeal.Pos.posOf (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg2)))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)) :
    Cert.algebraic_KernelIdeal_ReferenceIdeal := by
  intro m ρ m' ρ' _ hagree
  refine ⟨_, hK m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2]
  exact result_eq _ _ _

end Cert.Bridge

end
-- ==== Proof.lean ====
/-
  The claims about a position-embedding add. Both programs first assemble, by the same 33 host operations, a
  position table of 1025 rows of 1024 lanes from the two small arguments: the 528 learned rows are split into four
  quarters, gathered per grid cell through a literal cell table, permuted per cell through a literal rotation table,
  and stacked under the class row (the class quarter tiled four times). The kernel program then adds the table to
  each of the 64 batch entries of `x` by one pallas_call over 9 sequence blocks of 128 rows by 4 batch blocks of 16
  entries; the reference broadcasts the table along the batch and adds it on the host. At the ideal instance both
  results are `x + table` entry by entry, the two sums in the same order, so no law of the extended reals is
  needed and the precondition is never opened; the two tables are one function of the arguments because the two
  programs' operations, shape relations, gather records and literal tables are the same terms.
  The sequence axis has 1025 = 8·128 + 1 rows: the ninth sequence block overhangs every array by 127 rows, its
  transfers are cut at the arrays' end, and what the staging buffers hold past the cut is fixed by nothing; the
  frames and the value are stated on the rows inside the arrays, which is all a write-back moves.
  No operation of the kernel is rewritten by the idealization, so the preservation claim is empty.
-/
import proofs.«149279_j41120016892507_2_alg».proof.Defs
import proofs.«149279_j41120016892507_2_alg».proof.Proof.Gen.Kernel
import proofs.«149279_j41120016892507_2_alg».proof.Proof.Gen.KernelIdeal
import proofs.«149279_j41120016892507_2_alg».proof.Proof.Gen.ReferenceIdeal
import proofs.«149279_j41120016892507_2_alg».proof.Proof.Gen.Pre_finite_inputs
import proofs.«149279_j41120016892507_2_alg».proof.Proof.KernelBody
import proofs.«149279_j41120016892507_2_alg».proof.Proof.KernelIdealBody
import proofs.«149279_j41120016892507_2_alg».proof.Proof.KernelIdealValue
import proofs.«149279_j41120016892507_2_alg».proof.Proof.RefRun
import proofs.«149279_j41120016892507_2_alg».proof.Proof.Bridge

noncomputable section

namespace Cert.Proof

open Idealize.ShloMosaic Idealize.SL.Sem

/-- The kernel program as printed runs to the end, faults nowhere and leaves its arguments as launched. -/
theorem frame_kernel : Cert.frame_Kernel := fun m ρ _ => Cert.Kernel.Body.frame (F := Bits) m ρ

/-- The same of its reading at the ideal instance. -/
theorem frame_kernelIdeal : Cert.frame_KernelIdeal := fun m ρ _ => Cert.KernelIdeal.Body.frame (F := Ideal) m ρ

/-- The reference is a line of host operations, each writing a buffer of its own. -/
theorem frame_referenceIdeal : Cert.frame_ReferenceIdeal := fun m ρ _ => Cert.ReferenceIdeal.RefRun.frame (F := Ideal) m ρ

/-- The idealization rewrote no operation. -/
theorem preserves : Cert.preserves_Kernel_KernelIdeal := trivial

/-- From memories agreeing on the arguments both programs end with `x + table`, the table one function of the two
    small arguments. -/
theorem algebraic : Cert.algebraic_KernelIdeal_ReferenceIdeal :=
  Cert.Bridge.algebraic_of fun m ρ => Cert.KernelIdeal.Val.run (F := Ideal) m ρ

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
